-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩
abbrev S1 : Shape := ⟨1, ![1]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  reduces_S1024x256_S1024 : S1024x256.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1_d0_w32 : S1024x1.Iotas .tc 32 [0]
  iota_S1x1024_d1_w32 : S1x1024.Iotas .tc 32 [1]
  natLt_1_32 : 1 < 32
  reduces_S1024x1024_S1024 : S1024x1024.Reduces [1] S1024
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S256x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S8192, .f32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .f32⟩
  | .hbm, ⟨37, _⟩ => ⟨S8192x1, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KIDefs.lean ====
/-
  What the kernel's pallas_call computes, named. The call walks an 8×8 grid of points t = (i, j); at point t it is
  handed rows [1024·i, 1024·i+1024) of `out` (window 0), rows [1024·j, 1024·j+1024) of `out` (window 1), the
  labels of the same rows as a column (window 2) and of the same columns as a row (window 3), and adds one number
  — the masked, signed sum of squared distances over that 1024×1024 tile of the pair matrix — into the single
  1×1 output block, which it first sets to zero at the very first point. `accAt n` is the 1×1 block after point n:
  a left fold of the per-tile payload over the points in grid order. `result` is what @main returns from it.
-/
import proofs.«105626_j63496796504179_1_alg».proof.Proof.Gen.KernelIdeal.Launch
import proofs.«105626_j63496796504179_1_alg».proof.Proof.Gen.KernelIdeal.Skeleton
import proofs.«105626_j63496796504179_1_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- The TensorCore's buffers when the pallas_call is entered: the launch contents after the two reshapes of `label`. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One point's step: the 1×1 block `prev` plus the tile's sum, as the kernel body's payload of the point's blocks. -/
def stepAt (c : Dev nD) (t : Fin cfg0.N) (prev : Vec F S1x1 .f32) : Vec F S1x1 .f32 :=
  k0_pay1 (BitVec.ofNat 32 ((grid0.coords t) 1).val) (k0_pay3 (iblk m c 0 t) (iblk m c 1 t)) (k0_pay4 (iblk m c 2 t) (iblk m c 3 t))
    (k0_pay5 (grid0.coords t)) 1024#32 prev

/-- The 1×1 output block after point `n`: zero, then one step per point up to `n`. -/
def accAt (c : Dev nD) : (n : ℕ) → n < cfg0.N → Vec F S1x1 .f32
  | 0, hn => stepAt m c ⟨0, hn⟩ (k0_pay2 (F := F))
  | n + 1, hn => stepAt m c ⟨n + 1, hn⟩ (accAt c n (Nat.lt_of_succ_lt hn))

theorem accAt_zero (c : Dev nD) (hn : 0 < cfg0.N) : accAt m c 0 hn = stepAt m c ⟨0, hn⟩ (k0_pay2 (F := F)) := rfl
theorem accAt_succ (c : Dev nD) (n : ℕ) (hn : n + 1 < cfg0.N) :
    accAt m c (n + 1) hn = stepAt m c ⟨n + 1, hn⟩ (accAt m c n (Nat.lt_of_succ_lt hn)) := rfl

/-- What @main returns: the 1×1 block after the last point, reshaped to a scalar and scaled by the constant 2⁻¹⁴. -/
def result (c : Dev nD) : (⟨S_, .f32⟩ : BufTy).Contents (Elt F) :=
  mulf (constant S_ .f32 0x38800000#32) (shapeCast S_ (accAt m c 63 (by decide)) shapeCasts_S1x1_S_)

end Cert.KernelIdeal.Hand

end
-- ==== Proof.KIBody.lean ====
/-
  The kernel body run once per control case. The body first tests whether it is at the very first grid point
  (both coordinates zero) and, if so, stores zero into the 1×1 output block; it then loads the two row blocks and
  the two label blocks, loads the 1×1 block, and stores the block plus the tile's sum back. Case A is the first
  point (the block's earlier contents do not matter), case B every other point (the block holds what the point
  before left). Each run ends with the four input blocks as they were and the 1×1 block overwritten by the
  recorded stores.
-/
import proofs.«105626_j63496796504179_1_alg».proof.Proof.KIDefs
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's test "this is the first grid point", as the printed scalar chain over the coordinates. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond0 : ∀ t : Fin cfg0.N, cond0 (grid0.coords t) ↔ t.val % 64 = 0 :=
  (by decide +kernel : ∀ t : Fin grid0.N, cond0 (grid0.coords t) ↔ t.val % 64 = 0)

set_option maxHeartbeats 1000000 in
/-- Case A, the first point: whatever the 1×1 block held, the body runs and leaves it overwritten by its stores. -/
noncomputable def kernelRunA (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : cond0 i)
    (x0 : Vec F S1024x256 .f32) (x1 : Vec F S1024x256 .f32) (x2 : Vec F S1024x1 .i32) (x3 : Vec F S1x1024 .i32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- Case B, any later point: the 1×1 block holds `xo`, what the point before left; the body runs and leaves it
    overwritten by its stores. -/
noncomputable def kernelRunB (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KIFrame.lean ====
/-
  What the 1×1 output block holds after each grid point, and the pipeline's bookkeeping for the call: every input
  window's staging buffer holds its block of the array at every point (fetched there or not); the output window's
  buffer holds, after point n, the fold `accAt n` — zero plus the tile sums of the points 0 … n — because the body
  overwrites the whole block with (what it held) + (this tile's sum), after zeroing it at the first point, and the
  block is written back only after the last point. The two row windows read ONE array (`out`), so each holds half
  of its share.
-/
import proofs.«105626_j63496796504179_1_alg».proof.Proof.KIBody
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which a block's contents are stated (the choice does not matter). -/
abbrev VO4 : View sig .tc .vmem S1x1 .f32 := (Memref.whole cc0_stg4_0 : Memref sig .tc .vmem S1x1 .f32).view
/-- Each window's current staging memref at point `t`, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

theorem hz2 : (![0, 0] : Fin 2 → Nat) = fun _ => 0 := by
  funext a; match a with | ⟨0, _⟩ => rfl | ⟨1, _⟩ => rfl

/-- Case A's stores cover the 1×1 block. -/
theorem coverA (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : cond0 i)
    (x0 : Vec F S1024x256 .f32) (x1 : Vec F S1024x256 .f32) (x2 : Vec F S1024x1 .i32) (x3 : Vec F S1x1024 .i32) (y : S1x1.Idx) :
    ∃ pc ∈ (kernelRunA c i arg2 harg2 arg3 harg3 arg4 harg4 arg5 harg5 arg6 harg6 hc0 x0 x1 x2 x3).1, y ∈ pc.1.set :=
  View.cover_of_tiledL (kernelRunA c i arg2 harg2 arg3 harg3 arg4 harg4 arg5 harg5 arg6 harg6 hc0 x0 x1 x2 x3).1 S1x1.size (by sl_kernel_rfl) y

/-- Case B's store covers the 1×1 block. -/
theorem coverB (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1x1 .f32) (y : S1x1.Idx) :
    ∃ pc ∈ (kernelRunB c i arg2 harg2 arg3 harg3 arg4 harg4 arg5 harg5 arg6 harg6 hc0 x0 x1 x2 x3 xo).1, y ∈ pc.1.set :=
  View.cover_of_tiledL (kernelRunB c i arg2 harg2 arg3 harg3 arg4 harg4 arg5 harg5 arg6 harg6 hc0 x0 x1 x2 x3 xo).1 S1x1.size (by sl_kernel_rfl) y

/-- What case A leaves in the 1×1 block: zero plus the tile's sum, as the body's payload of the blocks it loaded. -/
theorem outA_eq (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : cond0 i)
    (x0 : Vec F S1024x256 .f32) (x1 : Vec F S1024x256 .f32) (x2 : Vec F S1024x1 .i32) (x3 : Vec F S1x1024 .i32) :
    VO4.read (Elt F) (VO4.writes (Elt F) VO4.junk (kernelRunA c i arg2 harg2 arg3 harg3 arg4 harg4 arg5 harg5 arg6 harg6 hc0 x0 x1 x2 x3).1)
      = k0_pay1 (BitVec.ofNat 32 (i 1).val) (k0_pay3 x0 x1) (k0_pay4 x2 x3) (k0_pay5 i) 1024#32 (k0_pay2 (F := F)) := by
  rw [View.read_writes_eq_canon _ _ _ (coverA c i arg2 harg2 arg3 harg3 arg4 harg4 arg5 harg5 arg6 harg6 hc0 x0 x1 x2 x3)]
  unfold kernelRunA
  dsimp only
  sl_unfold_words
  rw [View.canon_cons_unit_zero hz2]
  simp only [View.readAt_eq_ld, Memref.IsWhole.read_unread, View.ld_unit_zero (S := S1024x256) hz2, View.ld_unit_zero (S := S1024x1) hz2,
    View.ld_unit_zero (S := S1x1024) hz2, View.ld_unit_zero (S := S1x1) hz2]
  refine congrArg (k0_pay1 _ _ _ _ _) ?_
  exact View.readCov_unit_zero (Val := Elt F) (S := S1x1) (e := .f32) arg6.view hz2 inb_S1x1_S1x1_0_0 (k0_pay2 (F := F))

/-- What case B leaves in the 1×1 block: what it held plus the tile's sum. -/
theorem outB_eq (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1x1 .f32) :
    VO4.read (Elt F) (VO4.writes (Elt F) VO4.junk (kernelRunB c i arg2 harg2 arg3 harg3 arg4 harg4 arg5 harg5 arg6 harg6 hc0 x0 x1 x2 x3 xo).1)
      = k0_pay1 (BitVec.ofNat 32 (i 1).val) (k0_pay3 x0 x1) (k0_pay4 x2 x3) (k0_pay5 i) 1024#32 xo := by
  rw [View.read_writes_eq_canon _ _ _ (coverB c i arg2 harg2 arg3 harg3 arg4 harg4 arg5 harg5 arg6 harg6 hc0 x0 x1 x2 x3 xo)]
  unfold kernelRunB
  dsimp only
  sl_unfold_words
  rw [View.canon_unit_zero hz2]
  simp only [View.readAt_eq_ld, Memref.IsWhole.read_unread, View.ld_unit_zero (S := S1024x256) hz2, View.ld_unit_zero (S := S1024x1) hz2,
    View.ld_unit_zero (S := S1x1024) hz2, View.ld_unit_zero (S := S1x1) hz2]

/-! ## The pipeline's proof data -/

/-- The proof data of the call on core `c`: the arrays as the call finds them; after the body at point `t` each input's
    buffer at its block and the output's at `accAt t`; the two windows on `out` each hold half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- At any point but the first the 1×1 block's buffer holds what the body left at the point before: it is written
    back only after the last point. -/
theorem before4_B (c : Dev nD) (t : Fin cfg0.N) (h0 : ¬t.val % 64 = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- The fold at the first point and at a later one. -/
theorem accAt_first (c : Dev nD) (t : Fin cfg0.N) (h0 : t.val % 64 = 0) :
    accAt m c t.val t.isLt = stepAt m c t (k0_pay2 (F := F)) := by
  obtain ⟨n, hn⟩ := t
  have hN : n < 64 := lt_of_lt_of_eq hn (show cfg0.N = 64 from N_0)
  obtain rfl : n = 0 := by dsimp only at h0; omega
  rfl
theorem accAt_later (c : Dev nD) (t : Fin cfg0.N) (h0 : ¬t.val % 64 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h0
  | succ n => rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; at the first point the 1×1 block is zeroed and
    filled, at a later one it holds the fold so far and is stepped once. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val % 64 = 0
  · rw [accAt_first m c t h0]
    unfold stepAt
    iintro ⟨HΦ, Ho, ⟨%d0, H0⟩, ⟨%d1, H1⟩, ⟨%d2, H2⟩, ⟨%d3, H3⟩, ⟨%d4, H4⟩⟩
    iapply ((kernelRunA c (grid0.coords t) _ _ _ _ _ _ _ _ _ _ ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO4 VO4.junk _ (coverA c _ _ _ _ _ _ _ _ _ _ _ _ _ _ _ _)).trans (outA_eq c _ _ _ _ _ _ _ _ _ _ _ _ _ _ _ _)
  · rw [accAt_later m c t h0]
    simp only [before4_B m c t h0]
    unfold stepAt
    iintro ⟨HΦ, Ho, ⟨%d0, H0⟩, ⟨%d1, H1⟩, ⟨%d2, H2⟩, ⟨%d3, H3⟩, ⟨%d4, H4⟩⟩
    iapply ((kernelRunB c (grid0.coords t) _ _ _ _ _ _ _ _ _ _ (fun h => h0 ((hcond0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO4 VO4.junk _ (coverB c _ _ _ _ _ _ _ _ _ _ _ _ _ _ _ _ _)).trans (outB_eq c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The run of @main around the pallas_call. @main first reshapes `label` twice, then makes the call, then reshapes the
  1×1 result to a scalar and multiplies it by the constant 2⁻¹⁴. The call's two row windows read the same array,
  `out`, so its share is cut in two halves when the call is entered, one per window, and the halves are joined
  again when it returns; nothing writes `out` or `label`. The 1×1 result array ends at the fold after the last
  point, so @main returns `result`.
-/
import proofs.«105626_j63496796504179_1_alg».proof.Proof.KIFrame

set_option maxRecDepth 16384

noncomputable section

namespace Cert.KernelIdeal.Hand

open Idealize.ShloMosaic Idealize.ShloMosaic.TcCoe
open Idealize.SL Idealize.SL.RA
open Idealize.SL.BI (sProp bigSep bigSepL bigSep_eq_bigSepL_of_eq bigSep_univ_eq_bigSepL)
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the call, then the three closing lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The result array after the last point -/

/-- The output window's one block is the whole 1×1 array: reading any array through it gives the array. -/
theorem read_blk4 (c : Dev nD) (t : Fin cfg0.N) (G : Buf (Elt F) ((cfg0.win 4).arr.view.loc (c : Thread nD τ))) :
    ((cfg0.win 4).blk t).view.read (Elt F) G = G := by
  funext y
  rw [View.read_apply]
  show G (((cfg0.win 4).blk t).view.emb y) = G y
  refine congrArg G ?_
  funext a; apply Fin.ext
  match a with
  | ⟨0, _⟩ => show win0_4.index t (0 : Fin 2) * 1 + 1 * (y 0).val = (y 0).val; show 0 * 1 + 1 * (y 0).val = (y 0).val; omega
  | ⟨1, _⟩ => show win0_4.index t (1 : Fin 2) * 1 + 1 * (y 1).val = (y 1).val; show 0 * 1 + 1 * (y 1).val = (y 1).val; omega

theorem mem_blk4 (t : Fin cfg0.N) (i : S1x1.Idx) : i ∈ ((cfg0.win 4).blk t).view.set := by
  show i ∈ ((View.whole main_v2).slice (win0_4.rect t)).set
  rw [View.set_slice_whole, Rect.mem_set_unit]
  intro a
  match a with
  | ⟨0, _⟩ => show 0 * 1 ≤ (i 0).val ∧ (i 0).val < 0 * 1 + 1; have : (i 0).val < 1 := (i 0).isLt; omega
  | ⟨1, _⟩ => show 0 * 1 ≤ (i 1).val ∧ (i 1).val < 0 * 1 + 1; have : (i 1).val < 1 := (i 1).isLt; omega

/-- The result array when the call returns: the fold after the last point. -/
theorem final4 (c : Dev nD) : (dats m 0 c).arrAt 4 cfg0.N = accAt m c 63 (by decide) := by
  refine (dats m 0 c).arrAt_eq_of_cover 4 (accAt m c 63 (by decide)) (fun t hf => ?_) (fun i => ⟨⟨63, by decide⟩, (flush0_4 _).mpr rfl, mem_blk4 _ i⟩)
  rw [read_blk4 c t]
  show (cfg0.win 4).cut (grid0.coords t) ((dats m 0 c).after 4 t) = _
  rw [after4]
  have h63 : t.val % 64 = 63 := (flush0_4 t).mp hf
  have hN : t.val < 64 := lt_of_lt_of_eq t.isLt (show cfg0.N = 64 from N_0)
  obtain ⟨n, hn⟩ := t
  obtain rfl : n = 63 := by dsimp only at h63 hN; omega
  rfl

/-! ## The arrays, window by window -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The call's arrays one by one: `out` twice, at the two halves of its share; the two reshaped labels; the result. -/
theorem arrays_eq (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)
          ∗ (((c : Thread nD τ).loc main_v2) ↦{fullShare} Fa 4)) := by
  unfold Dat.arrays
  rw [bigSep_W0, (arr_whole0 0).set_eq_univ, (arr_whole0 2).set_eq_univ, (arr_whole0 3).set_eq_univ,
    (arr_whole0 4).set_eq_univ, share0, share1, share2, share3, share4]

/-- The buffers behind the arrays, listed. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v2) ↦{fullShare} Vv main_v2)) := by
  unfold Pipeline.arrBufs
  rw [bigSep_eq_bigSepL_of_eq [main_arg0, main_v0, main_v1, main_v2] (by decide) (by decide)]
  rfl

/-- Entering the call: `out`'s share is cut in two, one half per row window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, H0, H1, H2⟩
  ihave Ha := (pointsTo_share (PosShare.mem_left_op_right fullShare)).1 $$ Ha
  icases Ha with ⟨Hl, Hr⟩
  isplitl [Hl]; · iexact Hl
  isplitl [Hr]; · iexact Hr
  isplitl [H0]; · iexact H0
  isplitl [H1]; · iexact H1
  iexact H2

/-! ## The closing lines -/

/-- The buffers the closing lines touch. -/
abbrev tailBufs : Finset (DevRef τ sig) :=
  {Proc.devRef .tc main_v2, Proc.devRef .tc main_v3, Proc.devRef .tc main_cst, Proc.devRef .tc main_v4}

/-- The buffers when the call returns: the result array at the last fold, every other as the call found it; -/
def W1 (c : Dev nD) : Valuation τ sig (Elt F) :=
  Function.update (V0 m c) (Proc.devRef .tc main_v2) (accAt m c 63 (by decide))
/-- and after the closing lines. -/
abbrev W2 (c : Dev nD) : Valuation τ sig (Elt F) := StableHlo.after (List.flatten [hostOps1]) (W1 m c)

theorem tailBufs_eq (c : Dev nD) (W : Valuation τ sig (Elt F)) : (StableHlo.held (c : Thread nD τ) tailBufs W : sProp 𝕄)
    = iprop((((c : Thread nD τ).loc main_v2) ↦{fullShare} W (Proc.devRef .tc main_v2)) ∗ (((c : Thread nD τ).loc main_v3) ↦{fullShare} W (Proc.devRef .tc main_v3))
        ∗ (((c : Thread nD τ).loc main_cst) ↦{fullShare} W (Proc.devRef .tc main_cst)) ∗ (((c : Thread nD τ).loc main_v4) ↦{fullShare} W (Proc.devRef .tc main_v4))) := by
  unfold StableHlo.held
  rw [bigSep_eq_bigSepL_of_eq [Proc.devRef .tc main_v2, Proc.devRef .tc main_v3, Proc.devRef .tc main_cst, Proc.devRef .tc main_v4] (by decide) (by decide)]
  rfl

theorem tail_sub : ∀ ops ∈ ([hostOps1] : List (List (HloOp τ sig (Elt F)))), ∀ op ∈ ops, op.bufs ⊆ tailBufs := by
  intro ops hops op hop
  simp only [List.mem_cons, List.mem_nil_iff, or_false] at hops
  subst hops
  simp only [hostOps1, List.mem_cons, List.mem_nil_iff, or_false] at hop
  rcases hop with rfl | rfl | rfl
  · rw [StableHlo.reshape_bufs]; decide
  · rw [StableHlo.nullary_bufs]; decide
  · rw [StableHlo.binary_bufs]; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The closing lines leave the result array alone, -/
theorem W2_v2 (c : Dev nD) : W2 m c (Proc.devRef .tc main_v2) = accAt m c 63 (by decide) := by
  unfold W2
  rw [StableHlo.after_of_forall_not_mem (b := Proc.devRef .tc main_v2) _ _ (List.forall_iff_forall_mem.mp (by
      simp only [hostOps1, List.flatten_cons, List.flatten_nil, List.append_nil, List.Forall, StableHlo.nullary_writes, StableHlo.binary_writes, StableHlo.reshape_writes, Finset.mem_singleton]
      repeat' apply And.intro
      all_goals exact StableHlo.devRef_ne_of_ne (by decide)))]
  exact Function.update_self ..

/-- and write @main's result: the fold reshaped to a scalar, times 2⁻¹⁴. -/
theorem W2_v4 (c : Dev nD) : W2 m c (Proc.devRef .tc main_v4) = result m c := by
  unfold W2 result
  simp only [List.flatten_cons, List.flatten_nil, List.append_nil]
  after_results
  unfold W1
  simp only [Function.update_self]
  rfl

/-- What bypasses the call and the closing lines leave: `label`, and the three scalars of the closing lines. -/
def Zout (c : Dev nD) : sProp 𝕄 :=
  iprop((((c : Thread nD τ).loc main_arg1) ↦{fullShare} V m c main_arg1) ∗ (((c : Thread nD τ).loc main_v3) ↦{fullShare} W2 m c (Proc.devRef .tc main_v3))
    ∗ (((c : Thread nD τ).loc main_cst) ↦{fullShare} W2 m c (Proc.devRef .tc main_cst)) ∗ (((c : Thread nD τ).loc main_v4) ↦{fullShare} W2 m c (Proc.devRef .tc main_v4)))

set_option backward.isDefEq.respectTransparency.types false in
/-- The closing lines, from the call's return: they read the result array and write the three scalars. -/
theorem htail (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [Pipeline.unscopedRestP_none, unscopedRest0_eq, arrays_eq, final4]
  unfold Zout
  iintro ⟨Hk, Hb, ⟨Ha0, Ha1, Ha2, Ha3, Ha4⟩, ⟨Hr1, Hr3, Hrc, Hr4⟩⟩
  ihave Hh := (show iprop((((c : Thread nD τ).loc main_v2) ↦{fullShare} accAt m c 63 (by decide)) ∗ (((c : Thread nD τ).loc main_v3) ↦{fullShare} V m c main_v3)
        ∗ (((c : Thread nD τ).loc main_cst) ↦{fullShare} V m c main_cst) ∗ (((c : Thread nD τ).loc main_v4) ↦{fullShare} V m c main_v4))
      ⊢ (StableHlo.held (c : Thread nD τ) tailBufs (W1 m c) : sProp 𝕄) from Entails.of_eq (by
        rw [tailBufs_eq]
        unfold W1
        rw [Function.update_self, Function.update_of_ne (by decide), Function.update_of_ne (by decide), Function.update_of_ne (by decide)])) $$ [Ha4 Hr3 Hrc Hr4]
  · isplitl [Ha4]; · iexact Ha4
    isplitl [Hr3]; · iexact Hr3
    isplitl [Hrc] <;> iassumption
  iapply (Pipeline.wp_seqs_then (fun q => (cfgs q).toPCfg (Val := Elt F)) defs₀ Variants.none c tailBufs [] [hostOps1] tail_sub tail_fresh (W1 m c)) $$ [Hb Hh]
  · isplitl [Hb] <;> iassumption
  iintro ⟨Hb, Hh⟩
  ihave Hh := (show (StableHlo.held (c : Thread nD τ) tailBufs (W2 m c) : sProp 𝕄)
      ⊢ iprop((((c : Thread nD τ).loc main_v2) ↦{fullShare} accAt m c 63 (by decide)) ∗ (((c : Thread nD τ).loc main_v3) ↦{fullShare} W2 m c (Proc.devRef .tc main_v3))
        ∗ (((c : Thread nD τ).loc main_cst) ↦{fullShare} W2 m c (Proc.devRef .tc main_cst)) ∗ (((c : Thread nD τ).loc main_v4) ↦{fullShare} W2 m c (Proc.devRef .tc main_v4)))
      from Entails.of_eq (by rw [tailBufs_eq, W2_v2])) $$ Hh
  icases Hh with ⟨H2, H3, Hc, H4⟩
  iapply (le_wp_ret _ _ _ _ Q')
  iapply Hk
  isplitl [Ha0 Ha1 Ha2 Ha3 H2]
  · isplitl [Ha0]; · iexact Ha0
    isplitl [Ha1]; · iexact Ha1
    isplitl [Ha2]; · iexact Ha2
    isplitl [Ha3]; · iexact Ha3
    iexact H2
  isplitl [Hr1]; · iexact Hr1
  isplitl [H3]; · iexact H3
  isplitl [Hc] <;> iassumption

/-- The two reshapes write neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The run -/

set_option backward.isDefEq.respectTransparency.types false in
set_option maxHeartbeats 1600000 in
/-- From any memory with zero counters every weakly fair execution of @main terminates, nothing faulting, with the
    result at `result` and both arguments unchanged. -/
theorem run_main : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := Rounds.initOf (Pipeline.cells cfgs cellOf_inj) (Pipeline.launchToks cfgs cellOf_inj))
    (hu₀ := by
      iintro Hu; imodintro
      isplitl [Hu]; · iapply (show (ownU _ : sProp 𝕄) ⊢ BI.own (emb₁ (Rounds.initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Zout m c)
    (hX := fun c => by
      iintro ⟨HU, -, -, -, Hp, -⟩; imodintro
      isplitl [Hp]; · iexists _; iexact Hp
      iexact HU)
    (hin := fun c => by
      rw [show (dats m 0 c).Φ 0 = Pipeline.ΦA spec0 c from rfl]
      unfold Pipeline.ΦA
      iintro ⟨Hp, -, Hr⟩
      isplitl [Hr] <;> iassumption)
    (hout := fun c => by
      rw [show (dats m 0 c).Φ (Fin.last _) = Pipeline.ΦA spec0 c from rfl, Pipeline.ownSems0_none]
      unfold Pipeline.ΦA
      iintro ⟨Hr, Hp⟩
      isplitl [Hp]; · iexact Hp
      isplitr; · iempintro
      iexact Hr)
    (htail := fun c Q' => htail m c Q')
    (QY := fun c s => s.mem ((c.tc : Thread nD τ).loc main_arg1) = V m c main_arg1
      ∧ s.mem ((c.tc : Thread nD τ).loc main_v4) = W2 m c (Proc.devRef .tc main_v4))
    (hY := fun c s' => by
      unfold Zout
      iintro ⟨-, ⟨H1, -, -, H4⟩, HSI⟩
      icombine HSI H1 gives %h1
      icombine HSI H4 gives %h4
      imodintro
      isplitr; · ipureintro; exact ⟨Buf.eq_of_forall_mem_univ h1, Buf.eq_of_forall_mem_univ h4⟩
      iexact HSI)
    (hQ := fun s h c => by
      obtain ⟨harrs, -, h1, h4⟩ := h c
      refine ⟨h4.trans (W2_v4 m c), ?_, h1.trans (V_main_arg1 m c)⟩
      exact (harrs 0).trans (((dats m 0 c).arrAt_in 0 rfl _).trans ((A_eq m c 0).trans (V_main_arg0 m c))))

end Cert.KernelIdeal.Hand

end
-- ==== Proof.KBDefs.lean ====
/-
  What the kernel's pallas_call computes, named. The call walks an 8×8 grid of points t = (i, j); at point t it is
  handed rows [1024·i, 1024·i+1024) of `out` (window 0), rows [1024·j, 1024·j+1024) of `out` (window 1), the
  labels of the same rows as a column (window 2) and of the same columns as a row (window 3), and adds one number
  — the masked, signed sum of squared distances over that 1024×1024 tile of the pair matrix — into the single
  1×1 output block, which it first sets to zero at the very first point. `accAt n` is the 1×1 block after point n:
  a left fold of the per-tile payload over the points in grid order. `result` is what @main returns from it.
-/
import proofs.«105626_j63496796504179_1_alg».proof.Proof.Gen.Kernel.Launch
import proofs.«105626_j63496796504179_1_alg».proof.Proof.Gen.Kernel.Skeleton
import proofs.«105626_j63496796504179_1_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- The TensorCore's buffers when the pallas_call is entered: the launch contents after the two reshapes of `label`. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One point's step: the 1×1 block `prev` plus the tile's sum, as the kernel body's payload of the point's blocks. -/
def stepAt (c : Dev nD) (t : Fin cfg0.N) (prev : Vec F S1x1 .f32) : Vec F S1x1 .f32 :=
  k0_pay1 (BitVec.ofNat 32 ((grid0.coords t) 1).val) (k0_pay3 (iblk m c 0 t) (iblk m c 1 t)) (k0_pay4 (iblk m c 2 t) (iblk m c 3 t))
    (k0_pay5 (grid0.coords t)) 1024#32 prev

/-- The 1×1 output block after point `n`: zero, then one step per point up to `n`. -/
def accAt (c : Dev nD) : (n : ℕ) → n < cfg0.N → Vec F S1x1 .f32
  | 0, hn => stepAt m c ⟨0, hn⟩ (k0_pay2 (F := F))
  | n + 1, hn => stepAt m c ⟨n + 1, hn⟩ (accAt c n (Nat.lt_of_succ_lt hn))

theorem accAt_zero (c : Dev nD) (hn : 0 < cfg0.N) : accAt m c 0 hn = stepAt m c ⟨0, hn⟩ (k0_pay2 (F := F)) := rfl
theorem accAt_succ (c : Dev nD) (n : ℕ) (hn : n + 1 < cfg0.N) :
    accAt m c (n + 1) hn = stepAt m c ⟨n + 1, hn⟩ (accAt m c n (Nat.lt_of_succ_lt hn)) := rfl

/-- What @main returns: the 1×1 block after the last point, reshaped to a scalar and scaled by the constant 2⁻¹⁴. -/
def result (c : Dev nD) : (⟨S_, .f32⟩ : BufTy).Contents (Elt F) :=
  mulf (constant S_ .f32 0x38800000#32) (shapeCast S_ (accAt m c 63 (by decide)) shapeCasts_S1x1_S_)

end Cert.Kernel.Hand

end
-- ==== Proof.KBBody.lean ====
/-
  The kernel body run once per control case. The body first tests whether it is at the very first grid point
  (both coordinates zero) and, if so, stores zero into the 1×1 output block; it then loads the two row blocks and
  the two label blocks, loads the 1×1 block, and stores the block plus the tile's sum back. Case A is the first
  point (the block's earlier contents do not matter), case B every other point (the block holds what the point
  before left). Each run ends with the four input blocks as they were and the 1×1 block overwritten by the
  recorded stores.
-/
import proofs.«105626_j63496796504179_1_alg».proof.Proof.KBDefs
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's test "this is the first grid point", as the printed scalar chain over the coordinates. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcond0 : ∀ t : Fin cfg0.N, cond0 (grid0.coords t) ↔ t.val % 64 = 0 :=
  (by decide +kernel : ∀ t : Fin grid0.N, cond0 (grid0.coords t) ↔ t.val % 64 = 0)

set_option maxHeartbeats 1000000 in
/-- Case A, the first point: whatever the 1×1 block held, the body runs and leaves it overwritten by its stores. -/
noncomputable def kernelRunA (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : cond0 i)
    (x0 : Vec F S1024x256 .f32) (x1 : Vec F S1024x256 .f32) (x2 : Vec F S1024x1 .i32) (x3 : Vec F S1x1024 .i32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- Case B, any later point: the 1×1 block holds `xo`, what the point before left; the body runs and leaves it
    overwritten by its stores. -/
noncomputable def kernelRunB (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1x1 .f32) :
    { L : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0_kernel i arg2 harg2 arg3 harg3 arg4 harg4 arg5 harg5 arg6 harg6) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KBFrame.lean ====
/-
  What the 1×1 output block holds after each grid point, and the pipeline's bookkeeping for the call: every input
  window's staging buffer holds its block of the array at every point (fetched there or not); the output window's
  buffer holds, after point n, the fold `accAt n` — zero plus the tile sums of the points 0 … n — because the body
  overwrites the whole block with (what it held) + (this tile's sum), after zeroing it at the first point, and the
  block is written back only after the last point. The two row windows read ONE array (`out`), so each holds half
  of its share.
-/
import proofs.«105626_j63496796504179_1_alg».proof.Proof.KBBody
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which a block's contents are stated (the choice does not matter). -/
abbrev VO4 : View sig .tc .vmem S1x1 .f32 := (Memref.whole cc0_stg4_0 : Memref sig .tc .vmem S1x1 .f32).view
/-- Each window's current staging memref at point `t`, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

theorem hz2 : (![0, 0] : Fin 2 → Nat) = fun _ => 0 := by
  funext a; match a with | ⟨0, _⟩ => rfl | ⟨1, _⟩ => rfl

/-- Case A's stores cover the 1×1 block. -/
theorem coverA (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : cond0 i)
    (x0 : Vec F S1024x256 .f32) (x1 : Vec F S1024x256 .f32) (x2 : Vec F S1024x1 .i32) (x3 : Vec F S1x1024 .i32) (y : S1x1.Idx) :
    ∃ pc ∈ (kernelRunA c i arg2 harg2 arg3 harg3 arg4 harg4 arg5 harg5 arg6 harg6 hc0 x0 x1 x2 x3).1, y ∈ pc.1.set :=
  View.cover_of_tiledL (kernelRunA c i arg2 harg2 arg3 harg3 arg4 harg4 arg5 harg5 arg6 harg6 hc0 x0 x1 x2 x3).1 S1x1.size (by sl_kernel_rfl) y

/-- Case B's store covers the 1×1 block. -/
theorem coverB (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1x1 .f32) (y : S1x1.Idx) :
    ∃ pc ∈ (kernelRunB c i arg2 harg2 arg3 harg3 arg4 harg4 arg5 harg5 arg6 harg6 hc0 x0 x1 x2 x3 xo).1, y ∈ pc.1.set :=
  View.cover_of_tiledL (kernelRunB c i arg2 harg2 arg3 harg3 arg4 harg4 arg5 harg5 arg6 harg6 hc0 x0 x1 x2 x3 xo).1 S1x1.size (by sl_kernel_rfl) y

/-- What case A leaves in the 1×1 block: zero plus the tile's sum, as the body's payload of the blocks it loaded. -/
theorem outA_eq (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : cond0 i)
    (x0 : Vec F S1024x256 .f32) (x1 : Vec F S1024x256 .f32) (x2 : Vec F S1024x1 .i32) (x3 : Vec F S1x1024 .i32) :
    VO4.read (Elt F) (VO4.writes (Elt F) VO4.junk (kernelRunA c i arg2 harg2 arg3 harg3 arg4 harg4 arg5 harg5 arg6 harg6 hc0 x0 x1 x2 x3).1)
      = k0_pay1 (BitVec.ofNat 32 (i 1).val) (k0_pay3 x0 x1) (k0_pay4 x2 x3) (k0_pay5 i) 1024#32 (k0_pay2 (F := F)) := by
  rw [View.read_writes_eq_canon _ _ _ (coverA c i arg2 harg2 arg3 harg3 arg4 harg4 arg5 harg5 arg6 harg6 hc0 x0 x1 x2 x3)]
  unfold kernelRunA
  dsimp only
  sl_unfold_words
  rw [View.canon_cons_unit_zero hz2]
  simp only [View.readAt_eq_ld, Memref.IsWhole.read_unread, View.ld_unit_zero (S := S1024x256) hz2, View.ld_unit_zero (S := S1024x1) hz2,
    View.ld_unit_zero (S := S1x1024) hz2, View.ld_unit_zero (S := S1x1) hz2]
  refine congrArg (k0_pay1 _ _ _ _ _) ?_
  exact View.readCov_unit_zero (Val := Elt F) (S := S1x1) (e := .f32) arg6.view hz2 inb_S1x1_S1x1_0_0 (k0_pay2 (F := F))

/-- What case B leaves in the 1×1 block: what it held plus the tile's sum. -/
theorem outB_eq (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (hc0 : ¬cond0 i)
    (x0 : Vec F S1024x256 .f32) (x1 : Vec F S1024x256 .f32) (x2 : Vec F S1024x1 .i32) (x3 : Vec F S1x1024 .i32) (xo : Vec F S1x1 .f32) :
    VO4.read (Elt F) (VO4.writes (Elt F) VO4.junk (kernelRunB c i arg2 harg2 arg3 harg3 arg4 harg4 arg5 harg5 arg6 harg6 hc0 x0 x1 x2 x3 xo).1)
      = k0_pay1 (BitVec.ofNat 32 (i 1).val) (k0_pay3 x0 x1) (k0_pay4 x2 x3) (k0_pay5 i) 1024#32 xo := by
  rw [View.read_writes_eq_canon _ _ _ (coverB c i arg2 harg2 arg3 harg3 arg4 harg4 arg5 harg5 arg6 harg6 hc0 x0 x1 x2 x3 xo)]
  unfold kernelRunB
  dsimp only
  sl_unfold_words
  rw [View.canon_unit_zero hz2]
  simp only [View.readAt_eq_ld, Memref.IsWhole.read_unread, View.ld_unit_zero (S := S1024x256) hz2, View.ld_unit_zero (S := S1024x1) hz2,
    View.ld_unit_zero (S := S1x1024) hz2, View.ld_unit_zero (S := S1x1) hz2]

/-! ## The pipeline's proof data -/

/-- The proof data of the call on core `c`: the arrays as the call finds them; after the body at point `t` each input's
    buffer at its block and the output's at `accAt t`; the two windows on `out` each hold half of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- At any point but the first the 1×1 block's buffer holds what the body left at the point before: it is written
    back only after the last point. -/
theorem before4_B (c : Dev nD) (t : Fin cfg0.N) (h0 : ¬t.val % 64 = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- The fold at the first point and at a later one. -/
theorem accAt_first (c : Dev nD) (t : Fin cfg0.N) (h0 : t.val % 64 = 0) :
    accAt m c t.val t.isLt = stepAt m c t (k0_pay2 (F := F)) := by
  obtain ⟨n, hn⟩ := t
  have hN : n < 64 := lt_of_lt_of_eq hn (show cfg0.N = 64 from N_0)
  obtain rfl : n = 0 := by dsimp only at h0; omega
  rfl
theorem accAt_later (c : Dev nD) (t : Fin cfg0.N) (h0 : ¬t.val % 64 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h0
  | succ n => rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; at the first point the 1×1 block is zeroed and
    filled, at a later one it holds the fold so far and is stepped once. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h0 : t.val % 64 = 0
  · rw [accAt_first m c t h0]
    unfold stepAt
    iintro ⟨HΦ, Ho, ⟨%d0, H0⟩, ⟨%d1, H1⟩, ⟨%d2, H2⟩, ⟨%d3, H3⟩, ⟨%d4, H4⟩⟩
    iapply ((kernelRunA c (grid0.coords t) _ _ _ _ _ _ _ _ _ _ ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO4 VO4.junk _ (coverA c _ _ _ _ _ _ _ _ _ _ _ _ _ _ _ _)).trans (outA_eq c _ _ _ _ _ _ _ _ _ _ _ _ _ _ _ _)
  · rw [accAt_later m c t h0]
    simp only [before4_B m c t h0]
    unfold stepAt
    iintro ⟨HΦ, Ho, ⟨%d0, H0⟩, ⟨%d1, H1⟩, ⟨%d2, H2⟩, ⟨%d3, H3⟩, ⟨%d4, H4⟩⟩
    iapply ((kernelRunB c (grid0.coords t) _ _ _ _ _ _ _ _ _ _ (fun h => h0 ((hcond0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO4 VO4.junk _ (coverB c _ _ _ _ _ _ _ _ _ _ _ _ _ _ _ _ _)).trans (outB_eq c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KBRun.lean ====
/-
  The run of @main around the pallas_call. @main first reshapes `label` twice, then makes the call, then reshapes the
  1×1 result to a scalar and multiplies it by the constant 2⁻¹⁴. The call's two row windows read the same array,
  `out`, so its share is cut in two halves when the call is entered, one per window, and the halves are joined
  again when it returns; nothing writes `out` or `label`. The 1×1 result array ends at the fold after the last
  point, so @main returns `result`.
-/
import proofs.«105626_j63496796504179_1_alg».proof.Proof.KBFrame

set_option maxRecDepth 16384

noncomputable section

namespace Cert.Kernel.Hand

open Idealize.ShloMosaic Idealize.ShloMosaic.TcCoe
open Idealize.SL Idealize.SL.RA
open Idealize.SL.BI (sProp bigSep bigSepL bigSep_eq_bigSepL_of_eq bigSep_univ_eq_bigSepL)
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the call -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the call, then the three closing lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The result array after the last point -/

/-- The output window's one block is the whole 1×1 array: reading any array through it gives the array. -/
theorem read_blk4 (c : Dev nD) (t : Fin cfg0.N) (G : Buf (Elt F) ((cfg0.win 4).arr.view.loc (c : Thread nD τ))) :
    ((cfg0.win 4).blk t).view.read (Elt F) G = G := by
  funext y
  rw [View.read_apply]
  show G (((cfg0.win 4).blk t).view.emb y) = G y
  refine congrArg G ?_
  funext a; apply Fin.ext
  match a with
  | ⟨0, _⟩ => show win0_4.index t (0 : Fin 2) * 1 + 1 * (y 0).val = (y 0).val; show 0 * 1 + 1 * (y 0).val = (y 0).val; omega
  | ⟨1, _⟩ => show win0_4.index t (1 : Fin 2) * 1 + 1 * (y 1).val = (y 1).val; show 0 * 1 + 1 * (y 1).val = (y 1).val; omega

theorem mem_blk4 (t : Fin cfg0.N) (i : S1x1.Idx) : i ∈ ((cfg0.win 4).blk t).view.set := by
  show i ∈ ((View.whole main_v2).slice (win0_4.rect t)).set
  rw [View.set_slice_whole, Rect.mem_set_unit]
  intro a
  match a with
  | ⟨0, _⟩ => show 0 * 1 ≤ (i 0).val ∧ (i 0).val < 0 * 1 + 1; have : (i 0).val < 1 := (i 0).isLt; omega
  | ⟨1, _⟩ => show 0 * 1 ≤ (i 1).val ∧ (i 1).val < 0 * 1 + 1; have : (i 1).val < 1 := (i 1).isLt; omega

/-- The result array when the call returns: the fold after the last point. -/
theorem final4 (c : Dev nD) : (dats m 0 c).arrAt 4 cfg0.N = accAt m c 63 (by decide) := by
  refine (dats m 0 c).arrAt_eq_of_cover 4 (accAt m c 63 (by decide)) (fun t hf => ?_) (fun i => ⟨⟨63, by decide⟩, (flush0_4 _).mpr rfl, mem_blk4 _ i⟩)
  rw [read_blk4 c t]
  show (cfg0.win 4).cut (grid0.coords t) ((dats m 0 c).after 4 t) = _
  rw [after4]
  have h63 : t.val % 64 = 63 := (flush0_4 t).mp hf
  have hN : t.val < 64 := lt_of_lt_of_eq t.isLt (show cfg0.N = 64 from N_0)
  obtain ⟨n, hn⟩ := t
  obtain rfl : n = 63 := by dsimp only at h63 hN; omega
  rfl

/-! ## The arrays, window by window -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The call's arrays one by one: `out` twice, at the two halves of its share; the two reshaped labels; the result. -/
theorem arrays_eq (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2) ∗ (((c : Thread nD τ).loc main_v1) ↦{fullShare} Fa 3)
          ∗ (((c : Thread nD τ).loc main_v2) ↦{fullShare} Fa 4)) := by
  unfold Dat.arrays
  rw [bigSep_W0, (arr_whole0 0).set_eq_univ, (arr_whole0 2).set_eq_univ, (arr_whole0 3).set_eq_univ,
    (arr_whole0 4).set_eq_univ, share0, share1, share2, share3, share4]

/-- The buffers behind the arrays, listed. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v2) ↦{fullShare} Vv main_v2)) := by
  unfold Pipeline.arrBufs
  rw [bigSep_eq_bigSepL_of_eq [main_arg0, main_v0, main_v1, main_v2] (by decide) (by decide)]
  rfl

/-- Entering the call: `out`'s share is cut in two, one half per row window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, H0, H1, H2⟩
  ihave Ha := (pointsTo_share (PosShare.mem_left_op_right fullShare)).1 $$ Ha
  icases Ha with ⟨Hl, Hr⟩
  isplitl [Hl]; · iexact Hl
  isplitl [Hr]; · iexact Hr
  isplitl [H0]; · iexact H0
  isplitl [H1]; · iexact H1
  iexact H2

/-! ## The closing lines -/

/-- The buffers the closing lines touch. -/
abbrev tailBufs : Finset (DevRef τ sig) :=
  {Proc.devRef .tc main_v2, Proc.devRef .tc main_v3, Proc.devRef .tc main_cst, Proc.devRef .tc main_v4}

/-- The buffers when the call returns: the result array at the last fold, every other as the call found it; -/
def W1 (c : Dev nD) : Valuation τ sig (Elt F) :=
  Function.update (V0 m c) (Proc.devRef .tc main_v2) (accAt m c 63 (by decide))
/-- and after the closing lines. -/
abbrev W2 (c : Dev nD) : Valuation τ sig (Elt F) := StableHlo.after (List.flatten [hostOps1]) (W1 m c)

theorem tailBufs_eq (c : Dev nD) (W : Valuation τ sig (Elt F)) : (StableHlo.held (c : Thread nD τ) tailBufs W : sProp 𝕄)
    = iprop((((c : Thread nD τ).loc main_v2) ↦{fullShare} W (Proc.devRef .tc main_v2)) ∗ (((c : Thread nD τ).loc main_v3) ↦{fullShare} W (Proc.devRef .tc main_v3))
        ∗ (((c : Thread nD τ).loc main_cst) ↦{fullShare} W (Proc.devRef .tc main_cst)) ∗ (((c : Thread nD τ).loc main_v4) ↦{fullShare} W (Proc.devRef .tc main_v4))) := by
  unfold StableHlo.held
  rw [bigSep_eq_bigSepL_of_eq [Proc.devRef .tc main_v2, Proc.devRef .tc main_v3, Proc.devRef .tc main_cst, Proc.devRef .tc main_v4] (by decide) (by decide)]
  rfl

theorem tail_sub : ∀ ops ∈ ([hostOps1] : List (List (HloOp τ sig (Elt F)))), ∀ op ∈ ops, op.bufs ⊆ tailBufs := by
  intro ops hops op hop
  simp only [List.mem_cons, List.mem_nil_iff, or_false] at hops
  subst hops
  simp only [hostOps1, List.mem_cons, List.mem_nil_iff, or_false] at hop
  rcases hop with rfl | rfl | rfl
  · rw [StableHlo.reshape_bufs]; decide
  · rw [StableHlo.nullary_bufs]; decide
  · rw [StableHlo.binary_bufs]; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The closing lines leave the result array alone, -/
theorem W2_v2 (c : Dev nD) : W2 m c (Proc.devRef .tc main_v2) = accAt m c 63 (by decide) := by
  unfold W2
  rw [StableHlo.after_of_forall_not_mem (b := Proc.devRef .tc main_v2) _ _ (List.forall_iff_forall_mem.mp (by
      simp only [hostOps1, List.flatten_cons, List.flatten_nil, List.append_nil, List.Forall, StableHlo.nullary_writes, StableHlo.binary_writes, StableHlo.reshape_writes, Finset.mem_singleton]
      repeat' apply And.intro
      all_goals exact StableHlo.devRef_ne_of_ne (by decide)))]
  exact Function.update_self ..

/-- and write @main's result: the fold reshaped to a scalar, times 2⁻¹⁴. -/
theorem W2_v4 (c : Dev nD) : W2 m c (Proc.devRef .tc main_v4) = result m c := by
  unfold W2 result
  simp only [List.flatten_cons, List.flatten_nil, List.append_nil]
  after_results
  unfold W1
  simp only [Function.update_self]
  rfl

/-- What bypasses the call and the closing lines leave: `label`, and the three scalars of the closing lines. -/
def Zout (c : Dev nD) : sProp 𝕄 :=
  iprop((((c : Thread nD τ).loc main_arg1) ↦{fullShare} V m c main_arg1) ∗ (((c : Thread nD τ).loc main_v3) ↦{fullShare} W2 m c (Proc.devRef .tc main_v3))
    ∗ (((c : Thread nD τ).loc main_cst) ↦{fullShare} W2 m c (Proc.devRef .tc main_cst)) ∗ (((c : Thread nD τ).loc main_v4) ↦{fullShare} W2 m c (Proc.devRef .tc main_v4)))

set_option backward.isDefEq.respectTransparency.types false in
/-- The closing lines, from the call's return: they read the result array and write the three scalars. -/
theorem htail (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [Pipeline.unscopedRestP_none, unscopedRest0_eq, arrays_eq, final4]
  unfold Zout
  iintro ⟨Hk, Hb, ⟨Ha0, Ha1, Ha2, Ha3, Ha4⟩, ⟨Hr1, Hr3, Hrc, Hr4⟩⟩
  ihave Hh := (show iprop((((c : Thread nD τ).loc main_v2) ↦{fullShare} accAt m c 63 (by decide)) ∗ (((c : Thread nD τ).loc main_v3) ↦{fullShare} V m c main_v3)
        ∗ (((c : Thread nD τ).loc main_cst) ↦{fullShare} V m c main_cst) ∗ (((c : Thread nD τ).loc main_v4) ↦{fullShare} V m c main_v4))
      ⊢ (StableHlo.held (c : Thread nD τ) tailBufs (W1 m c) : sProp 𝕄) from Entails.of_eq (by
        rw [tailBufs_eq]
        unfold W1
        rw [Function.update_self, Function.update_of_ne (by decide), Function.update_of_ne (by decide), Function.update_of_ne (by decide)])) $$ [Ha4 Hr3 Hrc Hr4]
  · isplitl [Ha4]; · iexact Ha4
    isplitl [Hr3]; · iexact Hr3
    isplitl [Hrc] <;> iassumption
  iapply (Pipeline.wp_seqs_then (fun q => (cfgs q).toPCfg (Val := Elt F)) defs₀ Variants.none c tailBufs [] [hostOps1] tail_sub tail_fresh (W1 m c)) $$ [Hb Hh]
  · isplitl [Hb] <;> iassumption
  iintro ⟨Hb, Hh⟩
  ihave Hh := (show (StableHlo.held (c : Thread nD τ) tailBufs (W2 m c) : sProp 𝕄)
      ⊢ iprop((((c : Thread nD τ).loc main_v2) ↦{fullShare} accAt m c 63 (by decide)) ∗ (((c : Thread nD τ).loc main_v3) ↦{fullShare} W2 m c (Proc.devRef .tc main_v3))
        ∗ (((c : Thread nD τ).loc main_cst) ↦{fullShare} W2 m c (Proc.devRef .tc main_cst)) ∗ (((c : Thread nD τ).loc main_v4) ↦{fullShare} W2 m c (Proc.devRef .tc main_v4)))
      from Entails.of_eq (by rw [tailBufs_eq, W2_v2])) $$ Hh
  icases Hh with ⟨H2, H3, Hc, H4⟩
  iapply (le_wp_ret _ _ _ _ Q')
  iapply Hk
  isplitl [Ha0 Ha1 Ha2 Ha3 H2]
  · isplitl [Ha0]; · iexact Ha0
    isplitl [Ha1]; · iexact Ha1
    isplitl [Ha2]; · iexact Ha2
    isplitl [Ha3]; · iexact Ha3
    iexact H2
  isplitl [Hr1]; · iexact Hr1
  isplitl [H3]; · iexact H3
  isplitl [Hc] <;> iassumption

/-- The two reshapes write neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The run -/

set_option backward.isDefEq.respectTransparency.types false in
set_option maxHeartbeats 1600000 in
/-- From any memory with zero counters every weakly fair execution of @main terminates, nothing faulting, with the
    result at `result` and both arguments unchanged. -/
theorem run_main : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) (dats m) () cellOf_inj 0
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := Rounds.initOf (Pipeline.cells cfgs cellOf_inj) (Pipeline.launchToks cfgs cellOf_inj))
    (hu₀ := by
      iintro Hu; imodintro
      isplitl [Hu]; · iapply (show (ownU _ : sProp 𝕄) ⊢ BI.own (emb₁ (Rounds.initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Zout m c)
    (hX := fun c => by
      iintro ⟨HU, -, -, -, Hp, -⟩; imodintro
      isplitl [Hp]; · iexists _; iexact Hp
      iexact HU)
    (hin := fun c => by
      rw [show (dats m 0 c).Φ 0 = Pipeline.ΦA spec0 c from rfl]
      unfold Pipeline.ΦA
      iintro ⟨Hp, -, Hr⟩
      isplitl [Hr] <;> iassumption)
    (hout := fun c => by
      rw [show (dats m 0 c).Φ (Fin.last _) = Pipeline.ΦA spec0 c from rfl, Pipeline.ownSems0_none]
      unfold Pipeline.ΦA
      iintro ⟨Hr, Hp⟩
      isplitl [Hp]; · iexact Hp
      isplitr; · iempintro
      iexact Hr)
    (htail := fun c Q' => htail m c Q')
    (QY := fun c s => s.mem ((c.tc : Thread nD τ).loc main_arg1) = V m c main_arg1
      ∧ s.mem ((c.tc : Thread nD τ).loc main_v4) = W2 m c (Proc.devRef .tc main_v4))
    (hY := fun c s' => by
      unfold Zout
      iintro ⟨-, ⟨H1, -, -, H4⟩, HSI⟩
      icombine HSI H1 gives %h1
      icombine HSI H4 gives %h4
      imodintro
      isplitr; · ipureintro; exact ⟨Buf.eq_of_forall_mem_univ h1, Buf.eq_of_forall_mem_univ h4⟩
      iexact HSI)
    (hQ := fun s h c => by
      obtain ⟨harrs, -, h1, h4⟩ := h c
      refine ⟨h4.trans (W2_v4 m c), ?_, h1.trans (V_main_arg1 m c)⟩
      exact (harrs 0).trans (((dats m 0 c).arrAt_in 0 rfl _).trans ((A_eq m c 0).trans (V_main_arg0 m c))))

end Cert.Kernel.Hand

end
-- ==== Proof.Spec.lean ====
/-
  The mathematics both programs compute, stated once over plain functions.
  For rows x_R ∈ (extended reals)^256 and labels l_R, the pair matrix entry at (R, C) is
      E(R, C) = ((rowm R · colm C) · sgn(R, C)) · ((|x_R|² + |x_C|²) − 2 · ⟨x_R, x_C⟩),
  where rowm R = 1 for R < 8191 and 0 for the last row, colm C = 1 for C ≥ 1 and 0 for the first column,
  sgn = +1 on equal labels and −1 otherwise, |x_R|² = 0 + Σ_k x_R(k)², ⟨x_R, x_C⟩ = Σ_k x_R(k)·x_C(k).
  The reference sums E over all 8192 × 8192 pairs at once (`total`); the kernel sums it tile by tile, a tile
  being 1024 consecutive rows against 1024 consecutive columns, row sums first (`tile`), and adds the 64 tiles
  up one after the other from zero (`acc`). Sums on the extended reals are commutative and associative, so the
  two agree (proved elsewhere); the float literals are kept as their words and never evaluated, except zero.
-/
import Idealize.ShloMosaic.PureOps.Ideal
import Idealize.ShloMosaic.Lib.ValueIdx

noncomputable section

namespace Cert.Spec

open Idealize.ShloMosaic

/-- The words of the four float literals the programs share. -/
abbrev zero : EReal := Ideal.ofBits .f32 0x00000000#32
abbrev two : EReal := Ideal.ofBits .f32 0x40000000#32
abbrev one : EReal := Ideal.ofBits .f32 0x3F800000#32
abbrev negOne : EReal := Ideal.ofBits .f32 0xBF800000#32
/-- The scale 2⁻¹⁴ = 0.5 / 8192 both programs multiply the sum by. -/
abbrev scale : EReal := Ideal.ofBits .f32 0x38800000#32

variable (x : Fin 8192 → Fin 256 → EReal) (l : Fin 8192 → BitVec 32)

/-- |x_R|², as a sum started from the zero word. -/
def sq (R : Fin 8192) : EReal := zero + ∑ k : Fin 256, x R k * x R k
/-- ⟨x_R, x_C⟩. -/
def dot (R C : Fin 8192) : EReal := ∑ k : Fin 256, x R k * x C k
/-- All rows but the last. -/
def rowm (R : Fin 8192) : EReal := if R.val < 8191 then 1 else 0
/-- All columns but the first. -/
def colm (C : Fin 8192) : EReal := if 1 ≤ C.val then 1 else 0
/-- +1 on equal labels, −1 otherwise. -/
def sgn (R C : Fin 8192) : EReal := if l R = l C then one else negOne
/-- The pair matrix. -/
def E (R C : Fin 8192) : EReal := ((rowm R * colm C) * sgn l R C) * ((sq x R + sq x C) - two * dot x R C)

/-- The reference's sum: every pair at once, from the zero word. -/
def total : EReal := zero + ∑ R : Fin 8192, ∑ C : Fin 8192, E x l R C

/-- Row `r` of tile (i, j) in the whole matrix. -/
def rowOf (i : Fin 8) (r : Fin 1024) : Fin 8192 := ⟨1024 * i.val + r.val, by omega⟩

/-- The kernel's sum over tile (i, j): each row of the tile summed from the zero word, the row sums summed from the zero word. -/
def tile (i j : Fin 8) : EReal := zero + ∑ r : Fin 1024, (zero + ∑ c : Fin 1024, E x l (rowOf i r) (rowOf j c))

/-- The kernel's accumulator after the tiles 0 … n in grid order (tile n is (n / 8, n % 8)), started from the zero word. -/
def acc : (n : ℕ) → n < 64 → EReal
  | 0, _ => zero + tile x l ⟨0, by omega⟩ ⟨0, by omega⟩
  | n + 1, h => acc n (by omega) + tile x l ⟨(n + 1) / 8, by omega⟩ ⟨(n + 1) % 8, by omega⟩

end Cert.Spec

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KTilePay.lean ====
/-
  The kernel body's arithmetic read at an entry, over plain blocks. For blocks x0, x1 of 1024 rows and 256 lanes,
  a label column l2 and a label row l3:
    • the squared-distance tile at (r, c) is (Σ_k x0(r,k)² + Σ_k x1(c,k)²) − 2 · Σ_k x0(r,k)·x1(c,k): the two squared
      lengths are lane sums of the elementwise squares (the second one transposed into a row), the inner product is
      the block product against the transposed second block, and the format change on the way in is the identity;
    • the sign tile at (r, c) is +1 where l2(r) = l3(c) and −1 otherwise;
    • the row-number column at r is the word (point's row coordinate)·1024 + r;
    • the accumulating step at its one entry is the block it is given plus Σ_r Σ_c (rowmask(r)·colmask(c))·sign(r,c)·d2(r,c),
      the lane sums first and the sum of the row sums after.
  The masks are comparison bits widened and converted; on the words of row and column numbers below 8192 they are
  "all rows but the last" and "all columns but the first".
-/
import proofs.«105626_j63496796504179_1_alg».proof.Proof.Gen.KernelIdeal.Skeleton
import proofs.«105626_j63496796504179_1_alg».proof.Proof.Spec
import proofs.«105626_j63496796504179_1_alg».proof.Proof.LibDot
import proofs.«105626_j63496796504179_1_alg».proof.Proof.LibColumn
import Idealize.ShloMosaic.Lib.Pipeline.Value
import Idealize.ShloMosaic.Lib.ValueLayout
import Idealize.ShloMosaic.PureOps.Ideal.Laws

noncomputable section

namespace Cert.KernelIdeal.TileValue

open Idealize.ShloMosaic Idealize.ShloMosaic.ValueIdx
open Cert.KernelIdeal Cert.KernelIdeal.Gen

/-- Inserting coordinate k on axis 1 of the reduced index r of a [1024, 256] array gives (r, k). -/
theorem lift_row_256 (h : S1024x256.Reduces [1] S1024) (r : Fin 1024) (k : Fin 256) :
    h.lift (ix1 r) k = ix2 r k := by
  funext a; apply Fin.ext
  match a with
  | ⟨0, _⟩ => rfl
  | ⟨1, _⟩ => rfl

/-- The squared length of row r of a block: the lane sum of the block's elementwise square. -/
theorem rowsq_apply (x : FVec Ideal S1024x256 .f32) (h : S1024x256.Reduces [1] S1024) (hφ : FKind.Formats .f32)
    (hacc : (0x00000000#32 : BitVec 32) = FKind.add.neutral .f32 hφ) (r : Fin 1024) :
    multiReduction (F := Ideal) .add [1] S1024 (mulf x x) 0x00000000#32 h hφ hacc (ix1 r)
      = ∑ k : Fin 256, x (ix2 r k) * x (ix2 r k) := by
  refine (Ideal.multiReduction_add_single (mulf x x) _ h hφ hacc (ix1 r)).trans ?_
  refine Finset.sum_congr rfl fun k _ => ?_
  exact congrArg (mulf x x) (lift_row_256 h r k)

/-- The dimension numbers of the block product contract axis 1 of the left operand with axis 0 of the right one. -/
theorem plain_dot : Cert.LibDot.Plain dot_S1024x256_S256x1024_S1024x1024_1_0_0_1_n_n where
  hrank := rfl
  hs := rfl
  hl0 := fun _ _ => rfl
  hl1 := fun _ _ => rfl
  hr0 := fun _ _ => rfl
  hr1 := fun _ _ => rfl

/-- The squared-distance payload at (r, c): |x0_r|² + |x1_c|² − 2 ⟨x0_r, x1_c⟩, the two squared lengths as lane sums
    and the inner product as the block product against the transposed second block. -/
theorem pay3_apply (x0 x1 : Vec Ideal S1024x256 .f32) (r c : Fin 1024) :
    k0_pay3 (F := Ideal) x0 x1 (ix2 r c)
      = ((∑ k : Fin 256, x0 (ix2 r k) * x0 (ix2 r k)) + (∑ k : Fin 256, x1 (ix2 c k) * x1 (ix2 c k)))
        - Cert.Spec.two * ∑ k : Fin 256, x0 (ix2 r k) * x1 (ix2 c k) := by
  unfold k0_pay3
  dsimp only
  refine congrArg₂ (· - ·) (congrArg₂ (· + ·) ?_ ?_) (congrArg₂ (· * ·) rfl ?_)
  · refine (broadcastTo_a1_ab_apply _ _ r c).trans ?_
    refine (shapeCast_a_a1_apply _ _ r 0).trans ?_
    exact rowsq_apply x0 _ _ _ r
  · refine (broadcastTo_1b_ab_apply _ _ r c).trans ?_
    refine (transpose_ix2_apply _ _ (0 : Fin 1) c).trans ?_
    refine (shapeCast_a_a1_apply _ _ c 0).trans ?_
    exact rowsq_apply x1 _ _ _ c
  · refine (Cert.LibDot.matmul_ix2 plain_dot none _ _ r c).trans ?_
    refine Finset.sum_congr rfl fun k _ => ?_
    refine congrArg₂ (· * ·) rfl ?_
    exact transpose_ix2_apply _ _ k c

/-- A select on the equality bit of two words is the `if` on their equality. -/
theorem select_cmpi_eq {α : Type} (x y : BitVec 32) (a b : α) :
    Scalar.select (IntOp.cmpi .eq x y) a b = if x = y then a else b := by
  by_cases h : x = y
  · simp [Scalar.select, IntOp.cmpi, h]
  · have hb : (x == y) = false := beq_eq_false_iff_ne.mpr h
    simp [Scalar.select, IntOp.cmpi, h, hb]

/-- The sign payload at (r, c): +1 where the row label r equals the column label c, −1 otherwise. -/
theorem pay4_apply (l2 : Vec Ideal S1024x1 .i32) (l3 : Vec Ideal S1x1024 .i32) (r c : Fin 1024) :
    k0_pay4 (F := Ideal) l2 l3 (ix2 r c)
      = if l2 (ix2 r (0 : Fin 1)) = l3 (ix2 (0 : Fin 1) c) then Cert.Spec.one else Cert.Spec.negOne := by
  unfold k0_pay4
  try dsimp only
  refine (select_cmpi_eq _ _ _ _).trans ?_
  have e1 : broadcastTo S1024x1024 (shapeCast S1024x1 l2 shapeCasts_S1024x1_S1024x1) broadcasts_S1024x1_S1024x1024 (ix2 r c)
      = l2 (ix2 r (0 : Fin 1)) :=
    (broadcastTo_a1_ab_apply _ _ r c).trans (congrFun (shapeCast_self l2 _) _)
  have e2 : broadcastTo S1024x1024 (shapeCast S1x1024 l3 shapeCasts_S1x1024_S1x1024) broadcasts_S1x1024_S1024x1024 (ix2 r c)
      = l3 (ix2 (0 : Fin 1) c) :=
    (broadcastTo_1b_ab_apply _ _ r c).trans (congrFun (shapeCast_self l3 _) _)
  rw [e1, e2]
  rfl

/-- The row-number payload at (r, ·): the point's row coordinate times 1024 plus r, as 32-bit words. -/
theorem pay5_apply (i : grid0.Coords) (r : Fin 1024) (u : Fin 1) :
    k0_pay5 i (ix2 r u) = BitVec.ofNat 32 (i 0).val * 1024#32 + BitVec.ofNat 32 r.val := by
  unfold k0_pay5
  try dsimp only
  show IntOp.addi _ (iota .tc S1024x1 32 [0] iota_S1024x1_d0_w32 (ix2 r u)) = _
  rw [iota_single_apply]
  rfl

/-- The row mask of a row-number word: 1.0 where the word is below 8191 (signed), else 0.0, as the kernel converts the
    comparison bit. -/
def rowMask (w : BitVec 32) : EReal := ((((IntOp.cmpi .slt w 8191#32).setWidth 32).toInt : ℝ) : EReal)
/-- The column mask of a column-number word: 1.0 where the word is at least 1 (signed), else 0.0. -/
def colMask (w : BitVec 32) : EReal := ((((IntOp.cmpi .sge w 1#32).setWidth 32).toInt : ℝ) : EReal)

/-- Inserting coordinate c on axis 1 of the reduced index r of a [1024, 1024] array gives (r, c). -/
theorem lift_row_1024 (h : S1024x1024.Reduces [1] S1024) (r : Fin 1024) (c : Fin 1024) :
    h.lift (ix1 r) c = ix2 r c := by
  funext a; apply Fin.ext
  match a with
  | ⟨0, _⟩ => rfl
  | ⟨1, _⟩ => rfl

/-- Inserting coordinate r on axis 0 of the one reduced index of a [1024, 1] column gives (r, 0). -/
theorem lift_col_1024 (h : S1024x1.Reduces [0] S1) (r : Fin 1024) :
    h.lift (ix1 (0 : Fin 1)) r = ix2 r (0 : Fin 1) := by
  funext a; apply Fin.ext
  match a with
  | ⟨0, _⟩ => rfl
  | ⟨1, _⟩ => rfl

/-- A lane sum of a [1024, 1024] tile at row r. -/
theorem rowsum_apply (v : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 v 0x00000000#32 h hφ hacc (ix1 r) = ∑ c : Fin 1024, v (ix2 r c) := by
  refine (Ideal.multiReduction_add_single v _ h hφ hacc (ix1 r)).trans ?_
  refine Finset.sum_congr rfl fun c _ => ?_
  exact congrArg v (lift_row_1024 h r c)

/-- The sum of a [1024, 1] column over its rows. -/
theorem colsum_apply (v : FVec Ideal S1024x1 .f32) (h : S1024x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1)) = ∑ r : Fin 1024, v (ix2 r (0 : Fin 1)) := by
  refine (Ideal.multiReduction_add_single v _ h hφ hacc (ix1 (0 : Fin 1))).trans ?_
  refine Finset.sum_congr rfl fun r _ => ?_
  exact congrArg v (lift_col_1024 h r)

/-- The accumulating payload at its one entry: the block it is given plus the tile's sum — each row of the masked,
    signed squared distances summed along the lanes, then the row sums summed. -/
theorem pay1_apply (arg1 : BitVec 32) (v23 v33 : FVec Ideal S1024x1024 .f32) (v37 : IVec S1024x1 32) (c1024 : BitVec 32)
    (prev : Vec Ideal S1x1 .f32) :
    k0_pay1 (F := Ideal) arg1 v23 v33 v37 c1024 prev (ix2 (0 : Fin 1) (0 : Fin 1))
      = prev (ix2 (0 : Fin 1) (0 : Fin 1)) + ∑ r : Fin 1024, ∑ c : Fin 1024,
          ((rowMask (v37 (ix2 r (0 : Fin 1))) * colMask (arg1 * c1024 + BitVec.ofNat 32 c.val)) * v33 (ix2 r c)) * v23 (ix2 r c) := by
  unfold k0_pay1
  try dsimp only
  refine congrArg₂ (· + ·) (congrFun (shapeCast_self prev _) _) ?_
  refine (shapeCast_a_a1_apply _ _ (0 : Fin 1) (0 : Fin 1)).trans ?_
  refine (colsum_apply _ _ _ _).trans ?_
  refine Finset.sum_congr rfl fun r _ => ?_
  refine (shapeCast_a_a1_apply _ _ r (0 : Fin 1)).trans ?_
  refine (rowsum_apply _ _ _ _ r).trans ?_
  refine Finset.sum_congr rfl fun c _ => ?_
  refine congrArg₂ (· * ·) (congrArg₂ (· * ·) (congrArg₂ (· * ·) ?_ ?_) rfl) rfl
  · exact broadcastTo_a1_ab_apply _ _ r c
  · refine (broadcastTo_1b_ab_apply _ _ r c).trans ?_
    show ((((IntOp.cmpi .sge (IntOp.addi (Scalar.muli arg1 c1024) (iota .tc S1x1024 32 [1] iota_S1x1024_d1_w32 (ix2 (0 : Fin 1) c))) 1#32).setWidth 32).toInt : ℝ) : EReal) = _
    rw [iota_single_apply]
    rfl

/-- The 32-bit word of row (or column) number 1024·i + r of the pair matrix, as the kernel computes it. -/
theorem word_eq (i r : Nat) (hi : i < 8) (hr : r < 1024) :
    BitVec.ofNat 32 i * 1024#32 + BitVec.ofNat 32 r = BitVec.ofNat 32 (1024 * i + r) := by
  apply BitVec.eq_of_toNat_eq
  simp only [BitVec.toNat_add, BitVec.toNat_mul, BitVec.toNat_ofNat]
  omega

/-- A word below 2³¹ read signed is its number. -/
theorem toInt_small (n : Nat) (hn : n < 8192) : (BitVec.ofNat 32 n).toInt = (n : Int) := by
  have h : (BitVec.ofNat 32 n).toNat = n := by simp only [BitVec.toNat_ofNat]; omega
  rw [BitVec.toInt_eq_toNat_of_lt (by rw [h]; omega), h]

/-- The comparison bit widened and converted is 1 or 0. -/
theorem bit_to_real (b : Bool) : (((((BitVec.ofBool b).setWidth 32).toInt : ℤ) : ℝ) : EReal) = if b then 1 else 0 := by
  cases b
  · have : ((BitVec.ofBool false).setWidth 32).toInt = 0 := by decide
    rw [this]; simp
  · have : ((BitVec.ofBool true).setWidth 32).toInt = 1 := by decide
    rw [this]; simp

/-- The row mask at row number n < 8192: every row but the last. -/
theorem rowMask_word (n : Nat) (hn : n < 8192) : rowMask (BitVec.ofNat 32 n) = if n < 8191 then 1 else 0 := by
  show ((((BitVec.ofBool ((BitVec.ofNat 32 n).slt 8191#32)).setWidth 32).toInt : ℝ) : EReal) = _
  refine (bit_to_real _).trans ?_
  have h8191 : (8191#32 : BitVec 32).toInt = 8191 := by decide
  rw [BitVec.slt_eq_decide, toInt_small n hn, h8191]
  by_cases h : n < 8191
  · rw [if_pos h, if_pos (decide_eq_true (by omega))]
  · rw [if_neg h, if_neg (by rw [decide_eq_false (by omega)]; exact Bool.false_ne_true)]

/-- The column mask at column number n < 8192: every column but the first. -/
theorem colMask_word (n : Nat) (hn : n < 8192) : colMask (BitVec.ofNat 32 n) = if 1 ≤ n then 1 else 0 := by
  show ((((BitVec.ofBool ((1#32 : BitVec 32).sle (BitVec.ofNat 32 n))).setWidth 32).toInt : ℝ) : EReal) = _
  refine (bit_to_real _).trans ?_
  have h1 : (1#32 : BitVec 32).toInt = 1 := by decide
  rw [BitVec.sle_eq_decide, toInt_small n hn, h1]
  by_cases h : 1 ≤ n
  · rw [if_pos h, if_pos (decide_eq_true (by omega))]
  · rw [if_neg h, if_neg (by rw [decide_eq_false (by omega)]; exact Bool.false_ne_true)]

end Cert.KernelIdeal.TileValue

end
-- ==== Proof.KTileBlk.lean ====
/-
  What each window's block holds at a grid point, read off the launch memory. The call walks the 8×8 grid in row-major
  order, so point t is (t / 8, t % 8). Window 0 hands the body rows 1024·(t/8) … 1024·(t/8)+1023 of the first
  argument and window 1 rows 1024·(t%8) … of the same array; windows 2 and 3 hand it the labels of those rows, as a
  [1024, 1] column and as a [1, 1024] row, cut out of the two reshapes of the label vector that precede the call. An
  element of a block sits in its array at block index × block size + its coordinate inside the block, and a reshape
  keeps the row-major position, so every entry of every block is one entry of an argument.
-/
import proofs.«105626_j63496796504179_1_alg».proof.Proof.KIDefs
import proofs.«105626_j63496796504179_1_alg».proof.Proof.LibColumn
import Idealize.ShloMosaic.Lib.Pipeline.Value
import Idealize.ShloMosaic.Lib.ValueLayout
import Idealize.ShloMosaic.Lib.Tactic

noncomputable section

namespace Cert.KernelIdeal.TileValue

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-- Row R of the first argument, as a plain function of the row and the lane. -/
def xOf (c : Dev nD) : Fin 8192 → Fin 256 → EReal :=
  fun R k => (m ((c : Thread nD τ).loc main_arg0) : S8192x256.Idx → EReal) (ix2 R k)
/-- The label of row R. -/
def lOf (c : Dev nD) : Fin 8192 → BitVec 32 :=
  fun R => (m ((c : Thread nD τ).loc main_arg1) : S8192.Idx → BitVec 32) (ix1 R)

/-- The first argument is untouched by the two reshapes before the call. -/
theorem V_arg0 (c : Dev nD) :
    (V m c main_arg0 : S8192x256.Idx → EReal) = (m ((c : Thread nD τ).loc main_arg0) : S8192x256.Idx → EReal) := by
  dsimp only [V, V0, Gen.hostOps0]
  simp only [List.flatten_cons, List.flatten_nil, List.append_nil]
  after_results

/-- The label column the call is handed: the labels reshaped to [8192, 1]. -/
theorem V_v0 (c : Dev nD) :
    (V m c main_v0 : S8192x1.Idx → BitVec 32)
      = shapeCast S8192x1 (m ((c : Thread nD τ).loc main_arg1) : S8192.Idx → BitVec 32) shapeCasts_S8192_S8192x1 := by
  dsimp only [V, V0, Gen.hostOps0]
  simp only [List.flatten_cons, List.flatten_nil, List.append_nil]
  after_results
  rfl

/-- The label row the call is handed: the labels reshaped to [1, 8192]. -/
theorem V_v1 (c : Dev nD) :
    (V m c main_v1 : S1x8192.Idx → BitVec 32)
      = shapeCast S1x8192 (m ((c : Thread nD τ).loc main_arg1) : S8192.Idx → BitVec 32) shapeCasts_S8192_S1x8192 := by
  dsimp only [V, V0, Gen.hostOps0]
  simp only [List.flatten_cons, List.flatten_nil, List.append_nil]
  after_results
  rfl

/-- The windows' block indices and the grid coordinates at point t, decided over the 64 points: the point is
    (t / 8, t % 8); windows 0 and 2 follow the first coordinate, windows 1 and 3 the second. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ ((grid0.coords t) 0).val = t.val / 8 ∧ ((grid0.coords t) 1).val = t.val % 8 :=
  (by decide +kernel : ∀ t : Fin grid0.N, _)

/-- Window 0's block at point t is rows 1024·(t/8) … of the first argument. -/
theorem iblk0_apply (c : Dev nD) (t : Fin cfg0.N) (r : Fin 1024) (k : Fin 256) (R : Fin 8192)
    (hR : R.val = 1024 * (t.val / 8) + r.val) :
    (iblk m c 0 t : Vec Ideal S1024x256 .f32) (ix2 r k) = xOf m c R k := by
  obtain ⟨e0, e1, -⟩ := idx_facts t
  unfold iblk
  rw [View.read_apply]
  show V m c main_arg0 _ = _
  refine (congrFun (V_arg0 m c) _).trans ?_
  refine congrArg (m ((c : Thread nD τ).loc main_arg0) : S8192x256.Idx → EReal) ?_
  funext a; apply Fin.ext
  match a with
  | ⟨0, _⟩ => show win0_0.index t (0 : Fin 2) * 1024 + 1 * r.val = R.val; rw [e0, hR]; omega
  | ⟨1, _⟩ => show win0_0.index t (1 : Fin 2) * 256 + 1 * k.val = k.val; rw [e1]; omega

/-- Window 1's block at point t is rows 1024·(t%8) … of the first argument. -/
theorem iblk1_apply (c : Dev nD) (t : Fin cfg0.N) (r : Fin 1024) (k : Fin 256) (R : Fin 8192)
    (hR : R.val = 1024 * (t.val % 8) + r.val) :
    (iblk m c 1 t : Vec Ideal S1024x256 .f32) (ix2 r k) = xOf m c R k := by
  obtain ⟨-, -, e0, e1, -⟩ := idx_facts t
  unfold iblk
  rw [View.read_apply]
  show V m c main_arg0 _ = _
  refine (congrFun (V_arg0 m c) _).trans ?_
  refine congrArg (m ((c : Thread nD τ).loc main_arg0) : S8192x256.Idx → EReal) ?_
  funext a; apply Fin.ext
  match a with
  | ⟨0, _⟩ => show win0_1.index t (0 : Fin 2) * 1024 + 1 * r.val = R.val; rw [e0, hR]; omega
  | ⟨1, _⟩ => show win0_1.index t (1 : Fin 2) * 256 + 1 * k.val = k.val; rw [e1]; omega

/-- Window 2's block at point t is the labels of rows 1024·(t/8) …, as a column. -/
theorem iblk2_apply (c : Dev nD) (t : Fin cfg0.N) (r : Fin 1024) (u : Fin 1) (R : Fin 8192)
    (hR : R.val = 1024 * (t.val / 8) + r.val) :
    (iblk m c 2 t : Vec Ideal S1024x1 .i32) (ix2 r u) = lOf m c R := by
  obtain ⟨-, -, -, -, e0, e1, -⟩ := idx_facts t
  unfold iblk
  rw [View.read_apply]
  show V m c main_v0 _ = _
  refine (congrFun (V_v0 m c) _).trans ?_
  refine Eq.trans ?_ (shapeCast_a_a1_apply (m ((c : Thread nD τ).loc main_arg1) : S8192.Idx → BitVec 32) shapeCasts_S8192_S8192x1 R (0 : Fin 1))
  refine congrArg (shapeCast S8192x1 (m ((c : Thread nD τ).loc main_arg1) : S8192.Idx → BitVec 32) shapeCasts_S8192_S8192x1) ?_
  funext a; apply Fin.ext
  have hu : u.val = 0 := by omega
  match a with
  | ⟨0, _⟩ => show win0_2.index t (0 : Fin 2) * 1024 + 1 * r.val = R.val; rw [e0, hR]; omega
  | ⟨1, _⟩ => show win0_2.index t (1 : Fin 2) * 1 + 1 * u.val = 0; rw [e1, hu]

/-- Window 3's block at point t is the labels of columns 1024·(t%8) …, as a row. -/
theorem iblk3_apply (c : Dev nD) (t : Fin cfg0.N) (u : Fin 1) (q : Fin 1024) (C : Fin 8192)
    (hC : C.val = 1024 * (t.val % 8) + q.val) :
    (iblk m c 3 t : Vec Ideal S1x1024 .i32) (ix2 u q) = lOf m c C := by
  obtain ⟨-, -, -, -, -, -, e0, e1, -⟩ := idx_facts t
  unfold iblk
  rw [View.read_apply]
  show V m c main_v1 _ = _
  refine (congrFun (V_v1 m c) _).trans ?_
  refine Eq.trans ?_ (shapeCast_a_1a_apply (m ((c : Thread nD τ).loc main_arg1) : S8192.Idx → BitVec 32) shapeCasts_S8192_S1x8192 (0 : Fin 1) C)
  refine congrArg (shapeCast S1x8192 (m ((c : Thread nD τ).loc main_arg1) : S8192.Idx → BitVec 32) shapeCasts_S8192_S1x8192) ?_
  funext a; apply Fin.ext
  have hu : u.val = 0 := by omega
  match a with
  | ⟨0, _⟩ => show win0_3.index t (0 : Fin 2) * 1 + 1 * u.val = 0; rw [e0, hu]
  | ⟨1, _⟩ => show win0_3.index t (1 : Fin 2) * 1024 + 1 * q.val = C.val; rw [e1, hC]; omega

end Cert.KernelIdeal.TileValue

end
-- ==== Proof.KTile.lean ====
/-
  The kernel's value. At grid point t = (t / 8, t % 8) the body adds, into the one entry of its 1×1 block, the sum of
  tile (t / 8, t % 8) of the pair matrix: its row mask is 1 on the rows 1024·(t/8) + r below 8191, its column mask 1 on
  the columns 1024·(t%8) + c from 1 on, its sign compares the labels of that row and that column, and its squared
  distance is built from rows 1024·(t/8) + r and 1024·(t%8) + c of the first argument — each factor is the
  specification's, entry by entry, and the zero word the sums start from is 0. Folding the step over the 64 points
  from the zero block gives the specification's accumulator, and the program returns it scaled by the word of 2⁻¹⁴.
-/
import proofs.«105626_j63496796504179_1_alg».proof.Proof.KTilePay
import proofs.«105626_j63496796504179_1_alg».proof.Proof.KTileBlk

noncomputable section

namespace Cert.KernelIdeal.TileValue

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-- A grid point's number is below 64. -/
theorem lt64 (t : Fin cfg0.N) : t.val < 64 := lt_of_lt_of_eq t.isLt N_0

/-- ONE POINT'S STEP at the block's one entry: what the block held plus the sum of tile (t / 8, t % 8) of the pair matrix. -/
theorem stepAt_apply (c : Dev nD) (t : Fin cfg0.N) (prev : Vec Ideal S1x1 .f32) :
    stepAt (F := Ideal) m c t prev (ix2 (0 : Fin 1) (0 : Fin 1))
      = prev (ix2 (0 : Fin 1) (0 : Fin 1))
        + Cert.Spec.tile (xOf m c) (lOf m c) ⟨t.val / 8, by have := lt64 t; omega⟩ ⟨t.val % 8, by omega⟩ := by
  obtain ⟨-, -, -, -, -, -, -, -, g0, g1⟩ := idx_facts t
  have ht := lt64 t
  have hz : Cert.Spec.zero = 0 := Ideal.ofBits_zero_f32
  unfold stepAt
  refine (pay1_apply _ _ _ _ _ prev).trans ?_
  refine congrArg (prev (ix2 (0 : Fin 1) (0 : Fin 1)) + ·) ?_
  unfold Cert.Spec.tile
  rw [hz]
  simp only [zero_add]
  refine Finset.sum_congr rfl fun r _ => Finset.sum_congr rfl fun q _ => ?_
  unfold Cert.Spec.E
  refine congrArg₂ (· * ·) (congrArg₂ (· * ·) (congrArg₂ (· * ·) ?_ ?_) ?_) ?_
  · rw [pay5_apply, g0, word_eq _ _ (by omega) r.isLt, rowMask_word _ (by have := r.isLt; omega)]
    rfl
  · rw [g1, word_eq _ _ (by omega) q.isLt, colMask_word _ (by have := q.isLt; omega)]
    rfl
  · refine (pay4_apply (iblk m c 2 t) (iblk m c 3 t) r q).trans ?_
    have e2 := iblk2_apply m c t r (0 : Fin 1) (Cert.Spec.rowOf ⟨t.val / 8, by omega⟩ r) rfl
    have e3 := iblk3_apply m c t (0 : Fin 1) q (Cert.Spec.rowOf ⟨t.val % 8, by omega⟩ q) rfl
    rw [e2, e3]
    rfl
  · refine (pay3_apply (iblk m c 0 t) (iblk m c 1 t) r q).trans ?_
    unfold Cert.Spec.sq Cert.Spec.dot
    rw [hz]
    simp only [zero_add]
    refine congrArg₂ (· - ·) (congrArg₂ (· + ·) (Finset.sum_congr rfl fun k _ => ?_) (Finset.sum_congr rfl fun k _ => ?_))
      (congrArg₂ (· * ·) rfl (Finset.sum_congr rfl fun k _ => ?_))
    · rw [iblk0_apply m c t r k (Cert.Spec.rowOf ⟨t.val / 8, by omega⟩ r) rfl]
    · rw [iblk1_apply m c t q k (Cert.Spec.rowOf ⟨t.val % 8, by omega⟩ q) rfl]
    · rw [iblk0_apply m c t r k (Cert.Spec.rowOf ⟨t.val / 8, by omega⟩ r) rfl,
        iblk1_apply m c t q k (Cert.Spec.rowOf ⟨t.val % 8, by omega⟩ q) rfl]

/-- THE ACCUMULATOR after point n, at its one entry: the tiles 0 … n added up in grid order from zero. -/
theorem accAt_apply (c : Dev nD) : ∀ (n : ℕ) (hn : n < cfg0.N),
    accAt (F := Ideal) m c n hn (ix2 (0 : Fin 1) (0 : Fin 1))
      = Cert.Spec.acc (xOf m c) (lOf m c) n (lt_of_lt_of_eq hn N_0)
  | 0, hn => by
    rw [accAt_zero, stepAt_apply]
    simp only [Cert.Spec.acc]
    refine congrArg₂ (· + ·) rfl ?_
    exact congrArg₂ (Cert.Spec.tile (xOf m c) (lOf m c)) (Fin.ext (Nat.zero_div 8)) (Fin.ext (Nat.zero_mod 8))
  | n + 1, hn => by
    rw [accAt_succ, stepAt_apply, accAt_apply c n (Nat.lt_of_succ_lt hn)]
    simp only [Cert.Spec.acc]

/-- WHAT THE PROGRAM RETURNS: the accumulator after the last point, scaled by 2⁻¹⁴. -/
theorem result_eq (c : Dev nD) :
    result (F := Ideal) m c = fun _ => Cert.Spec.scale * Cert.Spec.acc (xOf m c) (lOf m c) 63 (by omega) := by
  funext j
  unfold result
  refine congrArg (Cert.Spec.scale * ·) ?_
  refine (shapeCast_apply _ _ j (ix2 (0 : Fin 1) (0 : Fin 1)) ?_).trans (accAt_apply m c 63 _)
  rw [Shape.rowMajor_val_two]
  exact (Shape.rowMajorPi_zero _ _).symm

end Cert.KernelIdeal.TileValue

end
-- ==== Proof.RefSide.lean ====
/-
  The reference's result at the ideal instance, read entry by entry.
  Every stage of the reference is read at explicit coordinates: the squared norm of row R is the zero word plus
  the sum over the 256 coordinates of the squares; the product of the rows with their transpose at (R, C) is the
  inner product of rows R and C; the squared distance is (|x_R|² + |x_C|²) − 2 · ⟨x_R, x_C⟩; the sign is the select
  of the words of +1 and −1 by equality of the two labels; the row mask is the one-bit comparison "R < 8191" of the
  row number as a signed 32-bit word, read unsigned as 1 or 0, the column mask likewise "C ≥ 1". A row number
  below 8192 is the same integer whether its 32-bit word is read signed or unsigned, so the comparisons are the
  comparisons of the numbers. The total reduce over both axes is the zero word plus the double sum over rows and
  columns, and the last stage multiplies by the word of 2⁻¹⁴.
-/
import proofs.«105626_j63496796504179_1_alg».proof.Proof.Gen.ReferenceIdeal.Read
import proofs.«105626_j63496796504179_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

/-- A row number below 8192, as a 32-bit word, reads back as itself when read signed. -/
theorem toInt_ofNat_lt (n : Nat) (h : n < 8192) : (BitVec.ofNat 32 n).toInt = (n : Int) := by
  rw [BitVec.toInt_eq_toNat_of_lt (by rw [BitVec.toNat_ofNat]; omega), BitVec.toNat_ofNat]
  omega

/-- A decided one-bit word, read unsigned as an extended real, is 1 or 0. -/
theorem uitofp_bit (p : Prop) [Decidable p] :
    FloatOps.uitofp (F := Ideal) .f32 (BitVec.ofBool (decide p)) = if p then (1 : EReal) else 0 := by
  by_cases h : p
  · rw [decide_eq_true h, if_pos h]
    show (((1#1 : BitVec 1).toNat : ℝ) : EReal) = 1
    simp
  · rw [decide_eq_false h, if_neg h]
    show (((0#1 : BitVec 1).toNat : ℝ) : EReal) = 0
    simp

/-- The row mask's word: the row number is below 8191, read signed. -/
theorem rowm_word (R : Fin 8192) :
    FloatOps.uitofp (F := Ideal) .f32 (IntOp.cmpi .slt (BitVec.ofNat 32 R.val) 8191#32) = rowm R := by
  have hR := toInt_ofNat_lt R.val R.isLt
  have h8 : (8191#32 : BitVec 32).toInt = 8191 := by decide
  show FloatOps.uitofp (F := Ideal) .f32 (BitVec.ofBool (decide ((BitVec.ofNat 32 R.val).toInt < (8191#32 : BitVec 32).toInt))) = _
  rw [hR, h8, uitofp_bit]
  unfold rowm
  by_cases h : R.val < 8191
  · rw [if_pos (by omega), if_pos h]
  · rw [if_neg (by omega), if_neg h]

/-- The column mask's word: the column number is at least 1, read signed. -/
theorem colm_word (C : Fin 8192) :
    FloatOps.uitofp (F := Ideal) .f32 (IntOp.cmpi .sge (BitVec.ofNat 32 C.val) 1#32) = colm C := by
  have hC := toInt_ofNat_lt C.val C.isLt
  have h1 : (1#32 : BitVec 32).toInt = 1 := by decide
  show FloatOps.uitofp (F := Ideal) .f32 (BitVec.ofBool (decide ((1#32 : BitVec 32).toInt ≤ (BitVec.ofNat 32 C.val).toInt))) = _
  rw [hC, h1, uitofp_bit]
  unfold colm
  by_cases h : 1 ≤ C.val
  · rw [if_pos (by omega), if_pos h]
  · rw [if_neg (by omega), if_neg h]

/-- The sign's word: the select of the two literal words by equality of the labels. -/
theorem sgn_word (a b : BitVec 32) :
    Scalar.select (IntOp.cmpi .eq a b) (Ideal.ofBits .f32 0x3F800000#32) (Ideal.ofBits .f32 0xBF800000#32)
      = if a = b then one else negOne := by
  by_cases h : a = b
  · subst h
    rw [if_pos rfl]
    show (if BitVec.ofBool (a == a) = 1 then _ else _) = _
    rw [beq_self_eq_true]
    rfl
  · rw [if_neg h]
    show (if BitVec.ofBool (a == b) = 1 then _ else _) = _
    rw [beq_eq_false_iff_ne.mpr h]
    rfl

variable (a0 : (⟨S8192x256, .f32⟩ : BufTy).Contents (Elt Ideal)) (a1 : (⟨S8192, .i32⟩ : BufTy).Contents (Elt Ideal))

/-- The squared norm of a row: the reduce over the 256 coordinates of the row's squares. -/
theorem v1_at (R : Fin 8192) :
    val_main_v1 (F := Ideal) a0 (ix1 R) = Spec.sq (fun R k => a0 (ix2 R k)) R := by
  have e : ∀ k : Fin 256, idx_main_v1 (ix1 R) k = ix2 R k := fun k =>
    funext fun a => by match a with | ⟨0, _⟩ => rfl | ⟨1, _⟩ => rfl
  rw [val_main_v1_apply]
  unfold Spec.sq
  simp only [e, val_main_v0_apply, val_main_cst_apply, Ideal.mulf_def, Ideal.ofBits_def]

/-- The two broadcasts of the squared norms, added. -/
theorem v6_at (R C : Fin 8192) :
    val_main_v6 (F := Ideal) a0 (ix2 R C)
      = Spec.sq (fun R k => a0 (ix2 R k)) R + Spec.sq (fun R k => a0 (ix2 R k)) C := by
  have e4 : idx_main_v2 (idx_main_v4 (ix2 R C)) = ix1 R := funext fun a => by match a with | ⟨0, _⟩ => rfl
  have e5 : idx_main_v3 (idx_main_v5 (ix2 R C)) = ix1 C := funext fun a => by match a with | ⟨0, _⟩ => rfl
  rw [val_main_v6_apply, val_main_v4_apply, val_main_v2_apply, val_main_v5_apply, val_main_v3_apply, e4, e5,
    v1_at, v1_at, Ideal.addf_def]

/-- The product of the rows with their transpose: the inner product of two rows. -/
theorem v8_at (R C : Fin 8192) :
    val_main_v8 (F := Ideal) a0 (ix2 R C) = dot (fun R k => a0 (ix2 R k)) R C := by
  have el : ∀ k : Fin 256, lidx_main_v8 (ix2 R C) k = ix2 R k := fun k =>
    funext fun a => by match a with | ⟨0, _⟩ => rfl | ⟨1, _⟩ => rfl
  have er : ∀ k : Fin 256, idx_main_v7 (ridx_main_v8 (ix2 R C) k) = ix2 C k := fun k =>
    funext fun a => by match a with | ⟨0, _⟩ => rfl | ⟨1, _⟩ => rfl
  rw [val_main_v8_apply]
  unfold dot
  simp only [val_main_v7_apply, el, er]

/-- The squared distance of two rows. -/
theorem v11_at (R C : Fin 8192) :
    val_main_v11 (F := Ideal) a0 (ix2 R C)
      = (Spec.sq (fun R k => a0 (ix2 R k)) R + Spec.sq (fun R k => a0 (ix2 R k)) C) - two * dot (fun R k => a0 (ix2 R k)) R C := by
  rw [val_main_v11_apply, val_main_v10_apply, val_main_v9_apply, val_main_cst_0_apply, v6_at, v8_at,
    Ideal.subf_def, Ideal.mulf_def, Ideal.ofBits_def]

/-- The sign of a pair: the select on equality of the two labels. -/
theorem v18_at (R C : Fin 8192) :
    val_main_v18 (F := Ideal) a1 (ix2 R C) = sgn (fun R => a1 (ix1 R)) R C := by
  have e14 : idx_main_v12 (idx_main_v14 (ix2 R C)) = ix1 R := funext fun a => by match a with | ⟨0, _⟩ => rfl
  have e15 : idx_main_v13 (idx_main_v15 (ix2 R C)) = ix1 C := funext fun a => by match a with | ⟨0, _⟩ => rfl
  rw [val_main_v18_apply, val_main_v17_apply, val_main_v16_apply, val_main_v14_apply, val_main_v12_apply,
    val_main_v15_apply, val_main_v13_apply, val_main_call0_v0_apply, val_main_call0_v1_apply,
    val_main_cst_1_apply, val_main_cst_2_apply, e14, e15]
  exact sgn_word _ _

/-- The product of the row mask and the column mask. -/
theorem v31_at (R C : Fin 8192) :
    val_main_v31 (F := Ideal) (ix2 R C) = rowm R * colm C := by
  have e29 : idx_main_v27 (idx_main_v29 (ix2 R C)) = ix1 R := funext fun a => by match a with | ⟨0, _⟩ => rfl
  have e30 : idx_main_v28 (idx_main_v30 (ix2 R C)) = ix1 C := funext fun a => by match a with | ⟨0, _⟩ => rfl
  rw [val_main_v31_apply, val_main_v29_apply, val_main_v27_apply, val_main_v30_apply, val_main_v28_apply, e29, e30,
    val_main_v22_apply, val_main_v21_apply, val_main_v19_apply, val_main_v20_apply, val_main_c_apply,
    val_main_v26_apply, val_main_v25_apply, val_main_v23_apply, val_main_v24_apply, val_main_c_3_apply,
    Ideal.mulf_def]
  exact congrArg₂ (· * ·) (rowm_word R) (colm_word C)

/-- The pair matrix's entry. -/
theorem v33_at (R C : Fin 8192) :
    val_main_v33 (F := Ideal) a0 a1 (ix2 R C) = E (fun R k => a0 (ix2 R k)) (fun R => a1 (ix1 R)) R C := by
  rw [val_main_v33_apply, val_main_v32_apply, v31_at, v18_at, v11_at, Ideal.mulf_def, Ideal.mulf_def]
  rfl

/-- The reference's result: the scale times the sum of the pair matrix over all pairs. -/
theorem ref_eq :
    val_main_v35 (F := Ideal) a0 a1
      = fun _ => scale * total (fun R k => a0 (ix2 R k)) (fun R => a1 (ix1 R)) := by
  funext i
  rw [val_main_v35_apply, val_main_v34_apply, val_main_cst_5_apply, val_main_cst_4_apply, ValueIdx.sum_idx2]
  simp only [v33_at, Ideal.mulf_def, Ideal.ofBits_def]
  rfl

section Run

open Idealize.ShloMosaic.TcCoe Idealize.SL.Sem Idealize.ShloMosaic.StableHlo

/-- Every weakly fair execution of the reference, at the ideal instance, ends with its result at the scale times the
    sum of the pair matrix over all pairs of the launch rows and labels, the two arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35)
        = (fun _ => Cert.Spec.scale * Cert.Spec.total (fun R k => m ((c.tc : Thread nD τ).loc main_arg0) (ix2 R k))
            (fun R => m ((c.tc : Thread nD τ).loc main_arg1) (ix1 R)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v35_eq _ _).trans (ref_eq _ _)), (h c).2⟩)
    (Cert.ReferenceIdeal.Value.run (F := Ideal) m ρ)

end Run

end Cert.ReferenceIdeal.RefValue

end
-- ==== Proof.Algebra.lean ====
/-
  The kernel's tile-by-tile accumulation equals the reference's sum over all pairs.
  Sums on the extended reals are commutative and associative with no side condition, so the argument is a
  re-indexing: a row index R < 8192 is a pair (tile row i < 8, row r < 1024 inside the tile) through
  R = 1024 * i + r, a tile number n < 64 in grid order is the pair (n / 8, n % 8), the zero word is the
  extended real 0, and the two middle sums (rows of the tile, tile columns) commute.
-/
import Mathlib
import Idealize.ShloMosaic.PureOps.Ideal.Laws
import proofs.«105626_j63496796504179_1_alg».proof.Proof.Spec

noncomputable section

namespace Cert.SpecAlgebra

open Idealize.ShloMosaic Cert.Spec

/-- The zero word is the extended real 0. -/
theorem zero_eq : (zero : EReal) = 0 := Ideal.ofBits_zero_f32

/-- A row of the whole matrix is a tile row together with a row inside the tile. -/
def rowEquiv : Fin 8 × Fin 1024 ≃ Fin 8192 where
  toFun p := rowOf p.1 p.2
  invFun R := (⟨R.val / 1024, by omega⟩, ⟨R.val % 1024, by omega⟩)
  left_inv := by
    rintro ⟨⟨i, hi⟩, ⟨r, hr⟩⟩
    refine Prod.ext (Fin.ext ?_) (Fin.ext ?_)
    · show (1024 * i + r) / 1024 = i
      omega
    · show (1024 * i + r) % 1024 = r
      omega
  right_inv := by
    rintro ⟨R, hR⟩
    refine Fin.ext ?_
    show 1024 * (R / 1024) + R % 1024 = R
    omega

/-- A tile number in grid order is a tile row together with a tile column. -/
def gridEquiv : Fin 64 ≃ Fin 8 × Fin 8 where
  toFun n := (⟨n.val / 8, by omega⟩, ⟨n.val % 8, by omega⟩)
  invFun p := ⟨8 * p.1.val + p.2.val, by omega⟩
  left_inv := by
    rintro ⟨n, hn⟩
    refine Fin.ext ?_
    show 8 * (n / 8) + n % 8 = n
    omega
  right_inv := by
    rintro ⟨⟨i, hi⟩, ⟨j, hj⟩⟩
    refine Prod.ext (Fin.ext ?_) (Fin.ext ?_)
    · show (8 * i + j) / 8 = i
      omega
    · show (8 * i + j) % 8 = j
      omega

/-- A sum over all rows, taken tile row by tile row. -/
theorem sum_rows (g : Fin 8192 → EReal) :
    ∑ R : Fin 8192, g R = ∑ i : Fin 8, ∑ r : Fin 1024, g (rowOf i r) :=
  calc ∑ R : Fin 8192, g R = ∑ p : Fin 8 × Fin 1024, g (rowEquiv p) := (rowEquiv.sum_comp g).symm
    _ = ∑ i : Fin 8, ∑ r : Fin 1024, g (rowEquiv (i, r)) := Fintype.sum_prod_type _
    _ = ∑ i : Fin 8, ∑ r : Fin 1024, g (rowOf i r) := rfl

/-- The sum over all pairs, taken tile by tile, for any pair matrix. -/
theorem grid_sum (f : Fin 8192 → Fin 8192 → EReal) :
    ∑ i : Fin 8, ∑ j : Fin 8, ∑ r : Fin 1024, ∑ c : Fin 1024, f (rowOf i r) (rowOf j c)
      = ∑ R : Fin 8192, ∑ C : Fin 8192, f R C :=
  calc ∑ i : Fin 8, ∑ j : Fin 8, ∑ r : Fin 1024, ∑ c : Fin 1024, f (rowOf i r) (rowOf j c)
      = ∑ i : Fin 8, ∑ r : Fin 1024, ∑ j : Fin 8, ∑ c : Fin 1024, f (rowOf i r) (rowOf j c) :=
        Finset.sum_congr rfl fun _ _ => Finset.sum_comm
    _ = ∑ i : Fin 8, ∑ r : Fin 1024, ∑ C : Fin 8192, f (rowOf i r) C :=
        Finset.sum_congr rfl fun i _ => Finset.sum_congr rfl fun r _ => (sum_rows (f (rowOf i r))).symm
    _ = ∑ R : Fin 8192, ∑ C : Fin 8192, f R C := (sum_rows fun R => ∑ C : Fin 8192, f R C).symm

variable (x : Fin 8192 → Fin 256 → EReal) (l : Fin 8192 → BitVec 32)

/-- A tile's sum without the zero words. -/
theorem tile_eq (i j : Fin 8) :
    tile x l i j = ∑ r : Fin 1024, ∑ c : Fin 1024, E x l (rowOf i r) (rowOf j c) := by
  simp only [tile, zero_eq, zero_add]

/-- The sum over tile number `m` in grid order, and 0 past the last tile. -/
def tileAt (m : ℕ) : EReal :=
  if h : m < 64 then tile x l ⟨m / 8, by omega⟩ ⟨m % 8, by omega⟩ else 0

/-- The accumulator after tile `n` is the sum of the tiles 0 … n. -/
theorem acc_eq_range : ∀ (n : ℕ) (h : n < 64), acc x l n h = ∑ m ∈ Finset.range (n + 1), tileAt x l m
  | 0, h => by
    have ht : tileAt x l 0 = tile x l ⟨0, by omega⟩ ⟨0, by omega⟩ := dif_pos h
    rw [Finset.sum_range_one, ht, acc, zero_eq, zero_add]
  | n + 1, h => by
    have ht : tileAt x l (n + 1) = tile x l ⟨(n + 1) / 8, by omega⟩ ⟨(n + 1) % 8, by omega⟩ := dif_pos h
    rw [Finset.sum_range_succ, ht, ← acc_eq_range n (by omega), acc]

/-- The accumulator after the last tile is the sum over all pairs. -/
theorem acc_eq_total : acc x l 63 (by omega) = total x l := by
  have h64 : ∑ m ∈ Finset.range (63 + 1), tileAt x l m = ∑ m : Fin 64, tileAt x l m.val :=
    Finset.sum_range _
  have hgrid : ∑ m : Fin 64, tileAt x l m.val = ∑ p : Fin 8 × Fin 8, tile x l p.1 p.2 := by
    rw [← gridEquiv.sum_comp (fun p => tile x l p.1 p.2)]
    exact Finset.sum_congr rfl fun m _ => dif_pos m.isLt
  rw [acc_eq_range, h64, hgrid, Fintype.sum_prod_type, total, zero_eq, zero_add, ← grid_sum]
  simp only [tile_eq]

end Cert.SpecAlgebra

end
-- ==== Proof.lean ====
/-
  The pairwise squared-distance loss, tiled against untiled.
  Both programs compute 2⁻¹⁴ · Σ_{R,C} E(R, C) over the 8192 × 8192 pair matrix
      E(R, C) = ((rowm R · colm C) · sgn(R, C)) · ((|x_R|² + |x_C|²) − 2·⟨x_R, x_C⟩)
  (Spec.lean). The reference forms the whole matrix and sums it at once. The kernel walks an 8 × 8 grid of
  1024 × 1024 tiles, sums each tile row by row, and adds the 64 tile sums one after the other into a 1 × 1 block
  zeroed at the first tile; it reads the rows of `out` through two windows on the same array and rounds the
  cross term's operands to bf16, which at the ideal instance is the identity. On the extended reals addition is
  commutative and associative without any finiteness assumption, so the tile-by-tile sum is the sum over all
  pairs (Algebra.lean), and the two results are equal whatever the inputs are: the precondition is never opened.
  The three frames come from the programs' runs: the kernel's run (at the word level and at the ideal instance,
  the same text) ends with both arguments as they were because the call only reads them — `out`'s share is cut in
  two halves for the two windows and joined again — and the host lines write only their own results.
-/
import proofs.«105626_j63496796504179_1_alg».proof.Defs
import proofs.«105626_j63496796504179_1_alg».proof.Proof.Gen.Kernel
import proofs.«105626_j63496796504179_1_alg».proof.Proof.Gen.KernelIdeal
import proofs.«105626_j63496796504179_1_alg».proof.Proof.Gen.ReferenceIdeal
import proofs.«105626_j63496796504179_1_alg».proof.Proof.Gen.Pre_finite_inputs
import proofs.«105626_j63496796504179_1_alg».proof.Proof.KIRun
import proofs.«105626_j63496796504179_1_alg».proof.Proof.KBRun
import proofs.«105626_j63496796504179_1_alg».proof.Proof.KTile
import proofs.«105626_j63496796504179_1_alg».proof.Proof.RefSide
import proofs.«105626_j63496796504179_1_alg».proof.Proof.Algebra

noncomputable section

namespace Cert.Proof

open Idealize.ShloMosaic Idealize.ShloMosaic.TcCoe Idealize.SL.Sem

/-- The word-level kernel runs to the end and leaves `out` and `label` as they were. -/
theorem frame_k : Cert.frame_Kernel (hKernel := Cert.Kernel.Gen.facts) (hPre_finite_inputs := Cert.Pre_finite_inputs.Gen.facts) := fun m ρ _ =>
  (θ_run Cert.Kernel.defs _ _).mono (fun _ h c => ⟨(h c).2.1, (h c).2.2⟩) (Cert.Kernel.Hand.run_main (F := Bits) m ρ)

/-- So does the idealized kernel. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => ⟨(h c).2.1, (h c).2.2⟩) (Cert.KernelIdeal.Hand.run_main (F := Ideal) m ρ)

/-- The reference is a straight line of host operations writing only their own results. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The kernel's fold over the 64 tiles and the reference's one sum over all pairs are the same extended real. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Hand.result (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2]
  show _ = Cert.KernelIdeal.Hand.result (F := Ideal) m c
  rw [Cert.KernelIdeal.TileValue.result_eq, Cert.SpecAlgebra.acc_eq_total]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
